-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S112x1 : Shape := ⟨2, ![112, 1]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S112x1 : S_.BroadcastsInDim S112x1 (![] : Fin 0 → Fin S112x1.rank)
  reducesTo_S112x1_S_d0_1 : S112x1.ReducesTo [0, 1] S_

variable [Facts]

def fn {F : FTy → Type} [FloatOps F] (main_arg0 : FVec F S1048576x16 .f32) (main_arg1 : FVec F S112x1 .f32) (main_arg2 : FVec F S112x1 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S112x1 .f32 := Host.absf main_arg1
  let main_cst_0 : FVec F S_ .f32 := constant S_ .f32 0x7F800000#32
  let main_v5 : FVec F S112x1 .f32 := broadcastInDim S112x1 ![] bcast_S_S112x1 main_cst_0
  let main_v6 : IVec S112x1 1 := cmpf .olt main_v4 main_v5
  let main_c_1 : IVec S_ 1 := constantI S_ 1 1#1
  let main_v7 : IVec S_ 1 := (fun x v => Host.reduce IntOp.andi x v reducesTo_S112x1_S_d0_1 h_S_) main_v6 main_c_1
  let main_v8 : IVec S_ 1 := andi main_v3 main_v7
  let main_v9 : FVec F S112x1 .f32 := Host.absf main_arg2
  let main_cst_2 : FVec F S_ .f32 := constant S_ .f32 0x7F800000#32
  let main_v10 : FVec F S112x1 .f32 := broadcastInDim S112x1 ![] bcast_S_S112x1 main_cst_2
  let main_v11 : IVec S112x1 1 := cmpf .olt main_v9 main_v10
  let main_c_3 : IVec S_ 1 := constantI S_ 1 1#1
  let main_v12 : IVec S_ 1 := (fun x v => Host.reduce IntOp.andi x v reducesTo_S112x1_S_d0_1 h_S_) main_v11 main_c_3
  let main_v13 : IVec S_ 1 := andi main_v8 main_v12
  main_v13
-- ==== Kernel.lean ====
abbrev S1048576x16 : Shape := ⟨2, ![1048576, 16]⟩
abbrev S112x1 : Shape := ⟨2, ![112, 1]⟩
abbrev S128x8 : Shape := ⟨2, ![128, 8]⟩
abbrev S131072x128 : Shape := ⟨2, ![131072, 128]⟩
abbrev S16x1 : Shape := ⟨2, ![16, 1]⟩
abbrev S16 : Shape := ⟨1, ![16]⟩
abbrev S1x16 : Shape := ⟨2, ![1, 16]⟩
abbrev S8x16 : Shape := ⟨2, ![8, 16]⟩
abbrev S128 : Shape := ⟨1, ![128]⟩
abbrev S128x1 : Shape := ⟨2, ![128, 1]⟩
abbrev S1x128x8 : Shape := ⟨3, ![1, 128, 8]⟩
abbrev S7x128x8 : Shape := ⟨3, ![7, 128, 8]⟩
abbrev S131072x16 : Shape := ⟨2, ![131072, 16]⟩
abbrev S2048x128 : Shape := ⟨2, ![2048, 128]⟩
abbrev S2048x16 : Shape := ⟨2, ![2048, 16]⟩
abbrev S2048x8 : Shape := ⟨2, ![2048, 8]⟩
abbrev S131072x2x8 : Shape := ⟨3, ![131072, 2, 8]⟩
abbrev S131072x8x2 : Shape := ⟨3, ![131072, 8, 2]⟩
abbrev S1048576x2 : Shape := ⟨2, ![1048576, 2]⟩

abbrev nBuf : Space → Nat
  | .hbm => 137
  | .vmem => 6
  | .smem => 0
  | _ => 0

abbrev hbmTy0_0 (i : Nat) : BufTy := match i % 128 with
  | 0 => ⟨S1048576x16, .f32⟩
  | 1 => ⟨S112x1, .f32⟩
  | 2 => ⟨S112x1, .f32⟩
  | 3 => ⟨S128x8, .f32⟩
  | 4 => ⟨S131072x128, .f32⟩
  | 5 => ⟨S16x1, .f32⟩
  | 6 => ⟨S16, .f32⟩
  | 7 => ⟨S1x16, .f32⟩
  | 8 => ⟨S8x16, .f32⟩
  | 9 => ⟨S128, .f32⟩
  | 10 => ⟨S128x1, .f32⟩
  | 11 => ⟨S128x8, .f32⟩
  | 12 => ⟨S128x8, .f32⟩
  | 13 => ⟨S16x1, .f32⟩
  | 14 => ⟨S16, .f32⟩
  | 15 => ⟨S1x16, .f32⟩
  | 16 => ⟨S8x16, .f32⟩
  | 17 => ⟨S128, .f32⟩
  | 18 => ⟨S128x1, .f32⟩
  | 19 => ⟨S128x8, .f32⟩
  | 20 => ⟨S128x8, .f32⟩
  | 21 => ⟨S16x1, .f32⟩
  | 22 => ⟨S16, .f32⟩
  | 23 => ⟨S1x16, .f32⟩
  | 24 => ⟨S8x16, .f32⟩
  | 25 => ⟨S128, .f32⟩
  | 26 => ⟨S128x1, .f32⟩
  | 27 => ⟨S128x8, .f32⟩
  | 28 => ⟨S128x8, .f32⟩
  | 29 => ⟨S16x1, .f32⟩
  | 30 => ⟨S16, .f32⟩
  | 31 => ⟨S1x16, .f32⟩
  | 32 => ⟨S8x16, .f32⟩
  | 33 => ⟨S128, .f32⟩
  | 34 => ⟨S128x1, .f32⟩
  | 35 => ⟨S128x8, .f32⟩
  | 36 => ⟨S128x8, .f32⟩
  | 37 => ⟨S16x1, .f32⟩
  | 38 => ⟨S16, .f32⟩
  | 39 => ⟨S1x16, .f32⟩
  | 40 => ⟨S8x16, .f32⟩
  | 41 => ⟨S128, .f32⟩
  | 42 => ⟨S128x1, .f32⟩
  | 43 => ⟨S128x8, .f32⟩
  | 44 => ⟨S128x8, .f32⟩
  | 45 => ⟨S16x1, .f32⟩
  | 46 => ⟨S16, .f32⟩
  | 47 => ⟨S1x16, .f32⟩
  | 48 => ⟨S8x16, .f32⟩
  | 49 => ⟨S128, .f32⟩
  | 50 => ⟨S128x1, .f32⟩
  | 51 => ⟨S128x8, .f32⟩
  | 52 => ⟨S128x8, .f32⟩
  | 53 => ⟨S16x1, .f32⟩
  | 54 => ⟨S16, .f32⟩
  | 55 => ⟨S1x16, .f32⟩
  | 56 => ⟨S8x16, .f32⟩
  | 57 => ⟨S128, .f32⟩
  | 58 => ⟨S128x1, .f32⟩
  | 59 => ⟨S128x8, .f32⟩
  | 60 => ⟨S128x8, .f32⟩
  | 61 => ⟨S1x128x8, .f32⟩
  | 62 => ⟨S1x128x8, .f32⟩
  | 63 => ⟨S1x128x8, .f32⟩
  | 64 => ⟨S1x128x8, .f32⟩
  | 65 => ⟨S1x128x8, .f32⟩
  | 66 => ⟨S1x128x8, .f32⟩
  | 67 => ⟨S1x128x8, .f32⟩
  | 68 => ⟨S7x128x8, .f32⟩
  | 69 => ⟨S16x1, .f32⟩
  | 70 => ⟨S16, .f32⟩
  | 71 => ⟨S1x16, .f32⟩
  | 72 => ⟨S8x16, .f32⟩
  | 73 => ⟨S128, .f32⟩
  | 74 => ⟨S128x1, .f32⟩
  | 75 => ⟨S128x8, .f32⟩
  | 76 => ⟨S128x8, .f32⟩
  | 77 => ⟨S16x1, .f32⟩
  | 78 => ⟨S16, .f32⟩
  | 79 => ⟨S1x16, .f32⟩
  | 80 => ⟨S8x16, .f32⟩
  | 81 => ⟨S128, .f32⟩
  | 82 => ⟨S128x1, .f32⟩
  | 83 => ⟨S128x8, .f32⟩
  | 84 => ⟨S128x8, .f32⟩
  | 85 => ⟨S16x1, .f32⟩
  | 86 => ⟨S16, .f32⟩
  | 87 => ⟨S1x16, .f32⟩
  | 88 => ⟨S8x16, .f32⟩
  | 89 => ⟨S128, .f32⟩
  | 90 => ⟨S128x1, .f32⟩
  | 91 => ⟨S128x8, .f32⟩
  | 92 => ⟨S128x8, .f32⟩
  | 93 => ⟨S16x1, .f32⟩
  | 94 => ⟨S16, .f32⟩
  | 95 => ⟨S1x16, .f32⟩
  | 96 => ⟨S8x16, .f32⟩
  | 97 => ⟨S128, .f32⟩
  | 98 => ⟨S128x1, .f32⟩
  | 99 => ⟨S128x8, .f32⟩
  | 100 => ⟨S128x8, .f32⟩
  | 101 => ⟨S16x1, .f32⟩
  | 102 => ⟨S16, .f32⟩
  | 103 => ⟨S1x16, .f32⟩
  | 104 => ⟨S8x16, .f32⟩
  | 105 => ⟨S128, .f32⟩
  | 106 => ⟨S128x1, .f32⟩
  | 107 => ⟨S128x8, .f32⟩
  | 108 => ⟨S128x8, .f32⟩
  | 109 => ⟨S16x1, .f32⟩
  | 110 => ⟨S16, .f32⟩
  | 111 => ⟨S1x16, .f32⟩
  | 112 => ⟨S8x16, .f32⟩
  | 113 => ⟨S128, .f32⟩
  | 114 => ⟨S128x1, .f32⟩
  | 115 => ⟨S128x8, .f32⟩
  | 116 => ⟨S128x8, .f32⟩
  | 117 => ⟨S16x1, .f32⟩
  | 118 => ⟨S16, .f32⟩
  | 119 => ⟨S1x16, .f32⟩
  | 120 => ⟨S8x16, .f32⟩
  | 121 => ⟨S128, .f32⟩
  | 122 => ⟨S128x1, .f32⟩
  | 123 => ⟨S128x8, .f32⟩
  | 124 => ⟨S128x8, .f32⟩
  | 125 => ⟨S1x128x8, .f32⟩
  | 126 => ⟨S1x128x8, .f32⟩
  | 127 => ⟨S1x128x8, .f32⟩
  | _ => ⟨S1048576x16, .f32⟩

abbrev hbmTy0_1 (i : Nat) : BufTy := match i % 128 with
  | 0 => ⟨S1x128x8, .f32⟩
  | 1 => ⟨S1x128x8, .f32⟩
  | 2 => ⟨S1x128x8, .f32⟩
  | 3 => ⟨S1x128x8, .f32⟩
  | 4 => ⟨S7x128x8, .f32⟩
  | 5 => ⟨S131072x16, .f32⟩
  | 6 => ⟨S131072x2x8, .f32⟩
  | 7 => ⟨S131072x8x2, .f32⟩
  | 8 => ⟨S1048576x2, .f32⟩
  | _ => ⟨S1048576x16, .f32⟩

abbrev hbmTy (i : Nat) : BufTy := match i / 128 with
  | 0 => hbmTy0_0 i
  | 1 => hbmTy0_1 i
  | _ => ⟨S1048576x16, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S7x128x8, .f32⟩
  | .local _ .vmem, ⟨3, _⟩ => ⟨S7x128x8, .f32⟩
  | .local _ .vmem, ⟨4, _⟩ => ⟨S2048x16, .f32⟩
  | .local _ .vmem, ⟨5, _⟩ => ⟨S2048x16, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩
abbrev main_v131 : Ref sig .tc := ⟨.hbm, 135, rfl⟩
abbrev main_v132 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x16_S131072x128 : S1048576x16.ShapeCasts S131072x128
  slices_S112x1_S16x1_0_0 : S112x1.Slices ![0, 0] S16x1
  shapeCasts_S16x1_S16 : S16x1.ShapeCasts S16
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  bcast_S128_S128x1_0 : S128.BroadcastsInDim S128x1 (![0] : Fin 1 → Fin S128x1.rank)
  bcast_S128x1_S128x8_0_1 : S128x1.BroadcastsInDim S128x8 (![0, 1] : Fin 2 → Fin S128x8.rank)
  slices_S112x1_S16x1_16_0 : S112x1.Slices ![16, 0] S16x1
  slices_S112x1_S16x1_32_0 : S112x1.Slices ![32, 0] S16x1
  slices_S112x1_S16x1_48_0 : S112x1.Slices ![48, 0] S16x1
  slices_S112x1_S16x1_64_0 : S112x1.Slices ![64, 0] S16x1
  slices_S112x1_S16x1_80_0 : S112x1.Slices ![80, 0] S16x1
  slices_S112x1_S16x1_96_0 : S112x1.Slices ![96, 0] S16x1
  bcast_S128x8_S1x128x8_1_2 : S128x8.BroadcastsInDim S1x128x8 (![1, 2] : Fin 2 → Fin S1x128x8.rank)
  concatenates_S1x128x8_S1x128x8_S1x128x8_S1x128x8_S1x128x8_S1x128x8_S1x128x8_S7x128x8_d0 : Shape.Concatenates [S1x128x8, S1x128x8, S1x128x8, S1x128x8, S1x128x8, S1x128x8, S1x128x8] S7x128x8 0
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S7x128x8_S1x128x8_0_0_0 : ∀ a, (![0, 0, 0] : Fin 3 → Nat) a + S1x128x8.size a ≤ S7x128x8.size a
  h_S1x128x8 : 0 < S1x128x8.numel
  shapeCasts_S1x128x8_S128x8 : S1x128x8.ShapeCasts S128x8
  bitsLt_bf16_f32 : FTy.bits .bf16 < FTy.bits .f32
  inb_S7x128x8_S1x128x8_1_0_0 : ∀ a, (![1, 0, 0] : Fin 3 → Nat) a + S1x128x8.size a ≤ S7x128x8.size a
  inb_S7x128x8_S1x128x8_2_0_0 : ∀ a, (![2, 0, 0] : Fin 3 → Nat) a + S1x128x8.size a ≤ S7x128x8.size a
  inb_S7x128x8_S1x128x8_3_0_0 : ∀ a, (![3, 0, 0] : Fin 3 → Nat) a + S1x128x8.size a ≤ S7x128x8.size a
  inb_S7x128x8_S1x128x8_4_0_0 : ∀ a, (![4, 0, 0] : Fin 3 → Nat) a + S1x128x8.size a ≤ S7x128x8.size a
  inb_S7x128x8_S1x128x8_5_0_0 : ∀ a, (![5, 0, 0] : Fin 3 → Nat) a + S1x128x8.size a ≤ S7x128x8.size a
  inb_S7x128x8_S1x128x8_6_0_0 : ∀ a, (![6, 0, 0] : Fin 3 → Nat) a + S1x128x8.size a ≤ S7x128x8.size a
  concatenates_S2048x8_S2048x8_S2048x16_d1 : Shape.Concatenates [S2048x8, S2048x8] S2048x16 1
  inb_S2048x16_S2048x16_0_0 : ∀ a, (![0, 0] : Fin 2 → Nat) a + S2048x16.size a ≤ S2048x16.size a
  h_S2048x16 : 0 < S2048x16.numel
  shapeCasts_S131072x16_S131072x2x8 : S131072x16.ShapeCasts S131072x2x8
  transposes_S131072x2x8_S131072x8x2_0_2_1 : S131072x2x8.Transposes [0, 2, 1] S131072x8x2
  shapeCasts_S131072x8x2_S1048576x2 : S131072x8x2.ShapeCasts S1048576x2
  dot_S2048x128_S128x8_S2048x8_1_0_0_1_n_n_wf : DotDims.WF S2048x128 S128x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128x8.size a ≤ S7x128x8.size a
  hwx0_1 : ∀ i : grid0.Coords, EltTy.bits .f32 = 32 ∨ (Rect.block (s := S7x128x8) S7x128x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128x8.size a ≤ S7x128x8.size a
  hwx0_2 : ∀ i : grid0.Coords, EltTy.bits .f32 = 32 ∨ (Rect.block (s := S7x128x8) S7x128x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S131072x16.size a
  hwx0_3 : ∀ i : grid0.Coords, EltTy.bits .f32 = 32 ∨ (Rect.block (s := S131072x16) S2048x16.size (cc0_transform_3 i) (hinb0_3 i)).WholeWords (EltTy.packing .f32)

variable [Facts₀]

def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S7x128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v128) S7x128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v129) S2048x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x16 : Shape := ⟨2, ![1048576, 16]⟩
abbrev S112x1 : Shape := ⟨2, ![112, 1]⟩
abbrev S_ : Shape := ⟨0, ![]⟩
abbrev S1048576x112 : Shape := ⟨2, ![1048576, 112]⟩
abbrev S1048576x1 : Shape := ⟨2, ![1048576, 1]⟩
abbrev S1048576x2 : Shape := ⟨2, ![1048576, 2]⟩

abbrev nBuf : Space → Nat
  | .hbm => 24
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S112x1, .f32⟩
  | .hbm, ⟨2, _⟩ => ⟨S112x1, .f32⟩
  | .hbm, ⟨3, _⟩ => ⟨S1048576x16, .f32⟩
  | .hbm, ⟨4, _⟩ => ⟨S1048576x16, .f32⟩
  | .hbm, ⟨5, _⟩ => ⟨S1048576x16, .f32⟩
  | .hbm, ⟨6, _⟩ => ⟨S1048576x16, .f32⟩
  | .hbm, ⟨7, _⟩ => ⟨S1048576x16, .f32⟩
  | .hbm, ⟨8, _⟩ => ⟨S1048576x16, .f32⟩
  | .hbm, ⟨9, _⟩ => ⟨S1048576x16, .f32⟩
  | .hbm, ⟨10, _⟩ => ⟨S1048576x16, .f32⟩
  | .hbm, ⟨11, _⟩ => ⟨S_, .f32⟩
  | .hbm, ⟨12, _⟩ => ⟨S1048576x16, .f32⟩
  | .hbm, ⟨13, _⟩ => ⟨S1048576x16, .f32⟩
  | .hbm, ⟨14, _⟩ => ⟨S_, .f32⟩
  | .hbm, ⟨15, _⟩ => ⟨S1048576x16, .f32⟩
  | .hbm, ⟨16, _⟩ => ⟨S1048576x16, .f32⟩
  | .hbm, ⟨17, _⟩ => ⟨S1048576x112, .f32⟩
  | .hbm, ⟨18, _⟩ => ⟨S1048576x1, .f32⟩
  | .hbm, ⟨19, _⟩ => ⟨S1048576x112, .f32⟩
  | .hbm, ⟨20, _⟩ => ⟨S1048576x112, .f32⟩
  | .hbm, ⟨21, _⟩ => ⟨S1048576x1, .f32⟩
  | .hbm, ⟨22, _⟩ => ⟨S1048576x1, .f32⟩
  | .hbm, ⟨23, _⟩ => ⟨S1048576x2, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S_S1048576x16 : S_.BroadcastsInDim S1048576x16 (![] : Fin 0 → Fin S1048576x16.rank)
  concatenates_S1048576x16_S1048576x16_S1048576x16_S1048576x16_S1048576x16_S1048576x16_S1048576x16_S1048576x112_d1 : Shape.Concatenates [S1048576x16, S1048576x16, S1048576x16, S1048576x16, S1048576x16, S1048576x16, S1048576x16] S1048576x112 1
  concatenates_S1048576x1_S1048576x1_S1048576x2_d1 : Shape.Concatenates [S1048576x1, S1048576x1] S1048576x2 1
  dot_S1048576x112_S112x1_S1048576x1_1_0_0_1_n_n_wf : DotDims.WF S1048576x112 S112x1 S1048576x1 [1] [0] [0] [1] [] []

variable [Facts₀]

def dot_S1048576x112_S112x1_S1048576x1_1_0_0_1_n_n : DotDims S1048576x112 S112x1 S1048576x1 where
  lhsContracting := [1]
  rhsContracting := [0]
  lhsNonContracting := [0]
  rhsNonContracting := [1]
  lhsBatch := []
  rhsBatch := []
  wf := dot_S1048576x112_S112x1_S1048576x1_1_0_0_1_n_n_wf

class Facts : Prop extends Facts₀ where

variable [Facts]
-- ==== Proof.RegionK.lean ====
/-
  The one region of `Kernel`: what the region finds in the device's buffers when it is entered, each
  window's block at a grid point, the body as ONE function of the three input blocks, and the proof
  data the pipeline's run is stated over.

  The grid has 64 points. At point `t` the body is handed rows `2048 t … 2048 t + 2047` of the packed
  input (`[131072, 128]`: eight tokens of sixteen features per row) and the two whole block-diagonal
  weight tensors (`[7, 128, 8]`, one `[128, 8]` slab per feature transform); it stores one
  `[2048, 16]` block: eight weighted sums beside eight weighted products per row.
-/
import proofs.«171581_j43276090474799_2_alg».proof.Proof.Gen.Kernel.Launch
import proofs.«171581_j43276090474799_2_alg».proof.Proof.Gen.Kernel.Skeleton
import proofs.«171581_j43276090474799_2_alg».proof.Proof.Gen.Kernel.Points
import Idealize.ShloMosaic.Lib.Pipeline.FrameBody
import Idealize.ShloMosaic.Lib.Pipeline.FrameSuffix

set_option maxRecDepth 16384

noncomputable section

namespace Cert.Kernel.Gen.Fr

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## The buffers as the region finds them -/

/-- Core `c`'s buffer contents when the region is entered: the launch memory after the host operations that
    come before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole packed-input block. -/
abbrev rX : Rect S2048x128 := Rect.unit (s := S2048x128) ![0, 0] S2048x128.size inb_S2048x128_S2048x128_0_0
/-- Slab `k` of a weight tensor, one per feature transform. -/
abbrev rW0 : Rect S7x128x8 := Rect.unit (s := S7x128x8) ![0, 0, 0] S1x128x8.size inb_S7x128x8_S1x128x8_0_0_0
abbrev rW1 : Rect S7x128x8 := Rect.unit (s := S7x128x8) ![1, 0, 0] S1x128x8.size inb_S7x128x8_S1x128x8_1_0_0
abbrev rW2 : Rect S7x128x8 := Rect.unit (s := S7x128x8) ![2, 0, 0] S1x128x8.size inb_S7x128x8_S1x128x8_2_0_0
abbrev rW3 : Rect S7x128x8 := Rect.unit (s := S7x128x8) ![3, 0, 0] S1x128x8.size inb_S7x128x8_S1x128x8_3_0_0
abbrev rW4 : Rect S7x128x8 := Rect.unit (s := S7x128x8) ![4, 0, 0] S1x128x8.size inb_S7x128x8_S1x128x8_4_0_0
abbrev rW5 : Rect S7x128x8 := Rect.unit (s := S7x128x8) ![5, 0, 0] S1x128x8.size inb_S7x128x8_S1x128x8_5_0_0
abbrev rW6 : Rect S7x128x8 := Rect.unit (s := S7x128x8) ![6, 0, 0] S1x128x8.size inb_S7x128x8_S1x128x8_6_0_0
/-- The whole output block. -/
abbrev rO : Rect S2048x16 := Rect.unit (s := S2048x16) ![0, 0] S2048x16.size inb_S2048x16_S2048x16_0_0

/-! ## The body as one function of its input blocks -/

/-- What the body stores, from the packed-input block `x` and the slabs of the sum weights `a k` and of the
    product weights `b k`: the seven transforms of `x` against the sum slabs accumulated left to right, beside the
    exponential of the seven log-magnitudes against the product slabs accumulated the same way. -/
def stored (x : Vec F S2048x128 .f32) (a0 a1 a2 a3 a4 a5 a6 b0 b1 b2 b3 b4 b5 b6 : Vec F S1x128x8 .f32) : FVec F S2048x16 .f32 :=
  k0_pay1 (k0_pay2 x) (k0_pay3 x)
    (k0_pay10 (k0_pay2 x) (k0_pay5 x a0 a1) (k0_pay8 x a2) a3 a4)
    (k0_pay11 (k0_pay2 x) (k0_pay6 x b0 b1) (k0_pay7 x) b2 b3 b4)
    (k0_pay12 (k0_pay3 x) a5) b5 a6 b6

/-- The output block after the body, from the three input blocks: the one store, over the loads. -/
def out0_3 (x0 : Vec F S2048x128 .f32) (x1 x2 : Vec F S7x128x8 .f32) : Vec F S2048x16 .f32 :=
  View.canon [⟨rO, stored (View.ld x0 rX)
    (View.ld x1 rW0) (View.ld x1 rW1) (View.ld x1 rW2) (View.ld x1 rW3) (View.ld x1 rW4) (View.ld x1 rW5) (View.ld x1 rW6)
    (View.ld x2 rW0) (View.ld x2 rW1) (View.ld x2 rW2) (View.ld x2 rW3) (View.ld x2 rW4) (View.ld x2 rW5) (View.ld x2 rW6)⟩]

/-! ## The pipeline's proof data -/

/-- On core `c`: the arrays as the region finds them; after the body at point `t` each input's staging buffer at
    its block and the output's at `out0_3` of the input blocks; nothing else of the core's state is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.Kernel.Gen.Fr

end
-- ==== Proof.FrameK.lean ====
/-
  The frame of `Kernel`: @main is the host operations before the one region, the region, and the host
  operations after it; no host operation writes an argument array, the region writes only its output array, so
  every run ends with the three argument arrays as launched.

  The body's triple: on whole staging buffers, the inputs' at read contents and the output's at anything, the
  kernel body returns the inputs' as they were and the output's at `out0_3` of the inputs' (its one store covers
  the block).
-/
import proofs.«171581_j43276090474799_2_alg».proof.Proof.RegionK
import Idealize.ShloMosaic.Lib.Ring
import Idealize.ShloMosaic.Lib.Tactic

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

set_option maxHeartbeats 40000000 in
/-- No host operation before the region allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Nor does one after it. -/
theorem hostOps1_fresh : (hostOps1 : List (HloOp τ sig (Elt F))).Forall fun op => op.fresh = ∅ :=
  ⟨rfl, rfl, rfl⟩

/-- @main is the host operations before the region, the region, and the host operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the bypassing buffers only: each operation's
    buffers are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays around the region -/

set_option maxHeartbeats 40000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 40000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 40000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Input window 0's current staging buffer holds its block at every point, fetched there or not, for any proof
    data whose array is the region-entry contents and whose body leaves the block in place: unfetched, the block
    index has not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run ending with
    every array of the pipeline at what the proof data say and every other unscoped buffer as the later operations
    leave it ends with the three argument arrays — none an array of the pipeline, none written by a host
    operation — as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The output block is covered -/

/-- The one store is over the whole output block, so it covers it. -/
theorem cover0_3 (p0 : Vec F S2048x16 .f32) (y : S2048x16.Idx) :
    ∃ pc ∈ ([⟨rO, p0⟩] : List (View.Piece (Elt F) S2048x16 .f32)), y ∈ pc.1.set :=
  View.cover_of_tiled [⟨rO, p0⟩] S2048x16.size (by rfl) y

/-! ## The body's triple -/

set_option maxHeartbeats 4000000 in
/-- The kernel body on whole staging buffers, the three inputs' at read contents and the output's at anything, runs
    to the continuation holding the inputs' as they were and the output's at `out0_3` of the inputs': its loads read
    the inputs' rectangles (and once the output's, a value it does not use), and its one store covers the output block. -/
theorem sound_kernel (c : Dev nD) (E : Set ℕ) (i : grid0.Coords)
    (arg1 : Memref sig .tc .vmem S2048x128 .f32) (harg1 : arg1.IsWhole)
    (arg2 : Memref sig .tc .vmem S7x128x8 .f32) (harg2 : arg2.IsWhole)
    (arg3 : Memref sig .tc .vmem S7x128x8 .f32) (harg3 : arg3.IsWhole)
    (arg4 : Memref sig .tc .vmem S2048x16 .f32) (harg4 : arg4.IsWhole)
    (x0 : Vec F S2048x128 .f32) (x1 x2 : Vec F S7x128x8 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## Each input's staging buffer at a point -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, and each window's current
    staging buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data say
    and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Gen.Fr.run_main' depends on axioms: [propext, Classical.choice, Quot.sound] -/
#guard_msgs in #print axioms run_main

/-- The frame: every run of @main terminates with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen.Fr

end
-- ==== Proof.RegionKI.lean ====
/-
  The one region of `KernelIdeal`: what the region finds in the device's buffers when it is entered, each
  window's block at a grid point, the body as ONE function of the three input blocks, and the proof
  data the pipeline's run is stated over.

  The grid has 64 points. At point `t` the body is handed rows `2048 t … 2048 t + 2047` of the packed
  input (`[131072, 128]`: eight tokens of sixteen features per row) and the two whole block-diagonal
  weight tensors (`[7, 128, 8]`, one `[128, 8]` slab per feature transform); it stores one
  `[2048, 16]` block: eight weighted sums beside eight weighted products per row.
-/
import proofs.«171581_j43276090474799_2_alg».proof.Proof.Gen.KernelIdeal.Launch
import proofs.«171581_j43276090474799_2_alg».proof.Proof.Gen.KernelIdeal.Skeleton
import proofs.«171581_j43276090474799_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Gen.Fr

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## The buffers as the region finds them -/

/-- Core `c`'s buffer contents when the region is entered: the launch memory after the host operations that
    come before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole packed-input block. -/
abbrev rX : Rect S2048x128 := Rect.unit (s := S2048x128) ![0, 0] S2048x128.size inb_S2048x128_S2048x128_0_0
/-- Slab `k` of a weight tensor, one per feature transform. -/
abbrev rW0 : Rect S7x128x8 := Rect.unit (s := S7x128x8) ![0, 0, 0] S1x128x8.size inb_S7x128x8_S1x128x8_0_0_0
abbrev rW1 : Rect S7x128x8 := Rect.unit (s := S7x128x8) ![1, 0, 0] S1x128x8.size inb_S7x128x8_S1x128x8_1_0_0
abbrev rW2 : Rect S7x128x8 := Rect.unit (s := S7x128x8) ![2, 0, 0] S1x128x8.size inb_S7x128x8_S1x128x8_2_0_0
abbrev rW3 : Rect S7x128x8 := Rect.unit (s := S7x128x8) ![3, 0, 0] S1x128x8.size inb_S7x128x8_S1x128x8_3_0_0
abbrev rW4 : Rect S7x128x8 := Rect.unit (s := S7x128x8) ![4, 0, 0] S1x128x8.size inb_S7x128x8_S1x128x8_4_0_0
abbrev rW5 : Rect S7x128x8 := Rect.unit (s := S7x128x8) ![5, 0, 0] S1x128x8.size inb_S7x128x8_S1x128x8_5_0_0
abbrev rW6 : Rect S7x128x8 := Rect.unit (s := S7x128x8) ![6, 0, 0] S1x128x8.size inb_S7x128x8_S1x128x8_6_0_0
/-- The whole output block. -/
abbrev rO : Rect S2048x16 := Rect.unit (s := S2048x16) ![0, 0] S2048x16.size inb_S2048x16_S2048x16_0_0

/-! ## The body as one function of its input blocks -/

/-- What the body stores, from the packed-input block `x` and the slabs of the sum weights `a k` and of the
    product weights `b k`: the seven transforms of `x` against the sum slabs accumulated left to right, beside the
    exponential of the seven log-magnitudes against the product slabs accumulated the same way. -/
def stored (x : Vec F S2048x128 .f32) (a0 a1 a2 a3 a4 a5 a6 b0 b1 b2 b3 b4 b5 b6 : Vec F S1x128x8 .f32) : FVec F S2048x16 .f32 :=
  k0_pay1 (k0_pay2 x) (k0_pay3 x)
    (k0_pay10 (k0_pay2 x) (k0_pay5 x a0 a1) (k0_pay8 x a2) a3 a4)
    (k0_pay11 (k0_pay2 x) (k0_pay6 x b0 b1) (k0_pay7 x) b2 b3 b4)
    (k0_pay12 (k0_pay3 x) a5) b5 a6 b6

/-- The output block after the body, from the three input blocks: the one store, over the loads. -/
def out0_3 (x0 : Vec F S2048x128 .f32) (x1 x2 : Vec F S7x128x8 .f32) : Vec F S2048x16 .f32 :=
  View.canon [⟨rO, stored (View.ld x0 rX)
    (View.ld x1 rW0) (View.ld x1 rW1) (View.ld x1 rW2) (View.ld x1 rW3) (View.ld x1 rW4) (View.ld x1 rW5) (View.ld x1 rW6)
    (View.ld x2 rW0) (View.ld x2 rW1) (View.ld x2 rW2) (View.ld x2 rW3) (View.ld x2 rW4) (View.ld x2 rW5) (View.ld x2 rW6)⟩]

/-! ## The pipeline's proof data -/

/-- On core `c`: the arrays as the region finds them; after the body at point `t` each input's staging buffer at
    its block and the output's at `out0_3` of the input blocks; nothing else of the core's state is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.KernelIdeal.Gen.Fr

end
-- ==== Proof.FrameKI.lean ====
/-
  The frame of `KernelIdeal`: @main is the host operations before the one region, the region, and the host
  operations after it; no host operation writes an argument array, the region writes only its output array, so
  every run ends with the three argument arrays as launched.

  The body's triple: on whole staging buffers, the inputs' at read contents and the output's at anything, the
  kernel body returns the inputs' as they were and the output's at `out0_3` of the inputs' (its one store covers
  the block).
-/
import proofs.«171581_j43276090474799_2_alg».proof.Proof.RegionKI
import Idealize.ShloMosaic.Lib.Ring
import Idealize.ShloMosaic.Lib.Tactic

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

set_option maxHeartbeats 40000000 in
/-- No host operation before the region allocates. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Nor does one after it. -/
theorem hostOps1_fresh : (hostOps1 : List (HloOp τ sig (Elt F))).Forall fun op => op.fresh = ∅ :=
  ⟨rfl, rfl, rfl⟩

/-- @main is the host operations before the region, the region, and the host operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the bypassing buffers only: each operation's
    buffers are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays around the region -/

set_option maxHeartbeats 40000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 40000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 40000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Input window 0's current staging buffer holds its block at every point, fetched there or not, for any proof
    data whose array is the region-entry contents and whose body leaves the block in place: unfetched, the block
    index has not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: unfetched, the block
    index has not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: unfetched, the block
    index has not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run ending with
    every array of the pipeline at what the proof data say and every other unscoped buffer as the later operations
    leave it ends with the three argument arrays — none an array of the pipeline, none written by a host
    operation — as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The output block is covered -/

/-- The one store is over the whole output block, so it covers it. -/
theorem cover0_3 (p0 : Vec F S2048x16 .f32) (y : S2048x16.Idx) :
    ∃ pc ∈ ([⟨rO, p0⟩] : List (View.Piece (Elt F) S2048x16 .f32)), y ∈ pc.1.set :=
  View.cover_of_tiled [⟨rO, p0⟩] S2048x16.size (by rfl) y

/-! ## The body's triple -/

set_option maxHeartbeats 4000000 in
/-- The kernel body on whole staging buffers, the three inputs' at read contents and the output's at anything, runs
    to the continuation holding the inputs' as they were and the output's at `out0_3` of the inputs': its loads read
    the inputs' rectangles (and once the output's, a value it does not use), and its one store covers the output block. -/
theorem sound_kernel (c : Dev nD) (E : Set ℕ) (i : grid0.Coords)
    (arg1 : Memref sig .tc .vmem S2048x128 .f32) (harg1 : arg1.IsWhole)
    (arg2 : Memref sig .tc .vmem S7x128x8 .f32) (harg2 : arg2.IsWhole)
    (arg3 : Memref sig .tc .vmem S7x128x8 .f32) (harg3 : arg3.IsWhole)
    (arg4 : Memref sig .tc .vmem S2048x16 .f32) (harg4 : arg4.IsWhole)
    (x0 : Vec F S2048x128 .f32) (x1 x2 : Vec F S7x128x8 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## Each input's staging buffer at a point -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, and each window's current
    staging buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data say
    and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Gen.Fr.run_main' depends on axioms: [propext, Classical.choice, Quot.sound] -/
#guard_msgs in #print axioms run_main

/-- The frame: every run of @main terminates with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen.Fr

end
-- ==== Proof.BlocksKI.lean ====
/-
  Where the kernel's blocks lie.

  The packed token matrix has 131072 rows of 128 lanes: row R holds the eight tokens 8 R … 8 R + 7, lane 16 j + d the
  feature d of the j-th of them, so the matrix at (R, k) is the token matrix at (8 R + k / 16, k mod 16) — both are
  position 128 R + k in row-major order. The grid has 64 points. At point t the first window's block is rows
  2048 t … 2048 t + 2047 of the packed matrix; the two weight windows' block is the whole tensor at every point, and
  the body reads its seven slabs through rectangles offset along the leading axis; the output window's block is rows
  2048 t … 2048 t + 2047 of the result, written back at every point. A block's coordinate on an axis is always the
  block index times the block's extent plus the coordinate inside the block. Every row R of the result lies in the
  block of point R / 2048, so a function that agrees with what each point stores on that point's rows is what the
  array holds after the last point.
-/
import proofs.«171581_j43276090474799_2_alg».proof.Proof.RegionKI
import Idealize.ShloMosaic.Lib.Pipeline.Value
import Idealize.ShloMosaic.Lib.ValueIdx
import Idealize.ShloMosaic.Lib.ValueLayout

set_option maxRecDepth 16384

noncomputable section

namespace Cert.KernelIdeal.Gen.Fr

open Idealize.ShloMosaic Idealize.ShloMosaic.TcCoe Idealize.ShloMosaic.ValueIdx
open Idealize.SL Idealize.SL.Sem
open Idealize.ShloMosaic.Pipeline (Dat Cfg Window)

/-! ## Loads through the body's rectangles -/

/-- The zero offsets, as a constant function. -/
theorem zeros2 : (![0, 0] : Fin 2 → Nat) = fun _ => 0 := funext fun a => by
  match a with
  | ⟨0, _⟩ => rfl
  | ⟨1, _⟩ => rfl

/-- A load through the whole packed-input block reads the block. -/
theorem ld_whole {Val : EltTy → Type} {e : EltTy} (X : S2048x128.Idx → Val e) : View.ld X rX = X :=
  View.ld_unit_zero (S := S2048x128) zeros2 inb_S2048x128_S2048x128_0_0 X

/-- A load through the rectangle at offset `K` along the leading axis reads slab `K`: the coordinate inside the
    rectangle plus the offset. -/
theorem ld_slab0 {Val : EltTy → Type} {e : EltTy} (X : S7x128x8.Idx → Val e) (k : Fin 128) (q : Fin 8) :
    View.ld X rW0 (ix3 (0 : Fin 1) k q) = X (ix3 (0 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))
theorem ld_slab1 {Val : EltTy → Type} {e : EltTy} (X : S7x128x8.Idx → Val e) (k : Fin 128) (q : Fin 8) :
    View.ld X rW1 (ix3 (0 : Fin 1) k q) = X (ix3 (1 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))
theorem ld_slab2 {Val : EltTy → Type} {e : EltTy} (X : S7x128x8.Idx → Val e) (k : Fin 128) (q : Fin 8) :
    View.ld X rW2 (ix3 (0 : Fin 1) k q) = X (ix3 (2 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))
theorem ld_slab3 {Val : EltTy → Type} {e : EltTy} (X : S7x128x8.Idx → Val e) (k : Fin 128) (q : Fin 8) :
    View.ld X rW3 (ix3 (0 : Fin 1) k q) = X (ix3 (3 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))
theorem ld_slab4 {Val : EltTy → Type} {e : EltTy} (X : S7x128x8.Idx → Val e) (k : Fin 128) (q : Fin 8) :
    View.ld X rW4 (ix3 (0 : Fin 1) k q) = X (ix3 (4 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))
theorem ld_slab5 {Val : EltTy → Type} {e : EltTy} (X : S7x128x8.Idx → Val e) (k : Fin 128) (q : Fin 8) :
    View.ld X rW5 (ix3 (0 : Fin 1) k q) = X (ix3 (5 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))
theorem ld_slab6 {Val : EltTy → Type} {e : EltTy} (X : S7x128x8.Idx → Val e) (k : Fin 128) (q : Fin 8) :
    View.ld X rW6 (ix3 (0 : Fin 1) k q) = X (ix3 (6 : Fin 7) k q) :=
  congrArg X (funext fun a => Fin.ext (by
    match a with
    | ⟨0, _⟩ => rfl
    | ⟨1, _⟩ => show 0 + 1 * k.val = k.val; omega
    | ⟨2, _⟩ => show 0 + 1 * q.val = q.val; omega))

/-! ## The packed token matrix -/

/-- The packed matrix at row `R`, lane `k` is the token matrix at token `8 R + k / 16`, feature `k mod 16`: the
    two have the same row-major position `128 R + k`. -/
theorem packed_apply {α : Type} (X0 : S1048576x16.Idx → α) (R : Fin 131072) (k : Fin 128) :
    shapeCast S131072x128 X0 shapeCasts_S1048576x16_S131072x128 (ix2 R k)
      = X0 (ix2 (⟨8 * R.val + k.val / 16, by have := R.isLt; have := k.isLt; omega⟩ : Fin 1048576)
          (⟨k.val % 16, by omega⟩ : Fin 16)) := by
  refine shapeCast_apply X0 _ (ix2 R k) _ ?_
  rw [Shape.rowMajor_val_two, Shape.rowMajor_val_two]
  show (8 * R.val + k.val / 16) * 16 + k.val % 16 = R.val * 128 + k.val
  omega

/-! ## The blocks at a point -/

variable {F : FTy → Type} [FloatOps F]
variable (m : (ℓ : Loc nD τ sig) → Buf (Elt F) ℓ)

/-- The grid has 64 points. -/
theorem point_lt (t : Fin cfg0.N) : t.val < 64 := lt_of_lt_of_eq t.isLt N_0

/-- The printed index maps, decided over the grid: the packed input's and the output's block index is the point on the
    row axis and zero on the lane axis; the weight windows' is zero on every axis. -/
theorem index_maps : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The packed-input block of point `t` at `(r, k)` is the packed matrix at row `2048 t + r`, lane `k`. -/
theorem iblk0_apply (c : Dev nD) (t : Fin cfg0.N) (r : Fin 2048) (k : Fin 128) :
    iblk m c 0 t (ix2 r k)
      = V m c main_v0 (ix2 (⟨2048 * t.val + r.val, by have := point_lt t; omega⟩ : Fin 131072) k) := by
  obtain ⟨e0, e1, -⟩ := index_maps t
  unfold iblk
  show V m c main_v0 (((cfg0.win 0).blk t).view.emb (ix2 r k)) = _
  refine congrArg (V m c main_v0) (funext fun a => Fin.ext ?_)
  match a with
  | ⟨0, _⟩ => show win0_0.index t (0 : Fin 2) * 2048 + 1 * r.val = 2048 * t.val + r.val; omega
  | ⟨1, _⟩ => show win0_0.index t (1 : Fin 2) * 128 + 1 * k.val = k.val; omega

/-- The sum weights' block is the whole tensor at every point. -/
theorem iblk1_apply (c : Dev nD) (t : Fin cfg0.N) (y : S7x128x8.Idx) : iblk m c 1 t y = V m c main_v64 y := by
  obtain ⟨-, -, e0, e1, e2, -⟩ := index_maps t
  unfold iblk
  show V m c main_v64 (((cfg0.win 1).blk t).view.emb y) = _
  refine congrArg (V m c main_v64) (funext fun a => Fin.ext ?_)
  match a with
  | ⟨0, _⟩ => show win0_1.index t (0 : Fin 3) * 7 + 1 * (y 0).val = (y 0).val; omega
  | ⟨1, _⟩ => show win0_1.index t (1 : Fin 3) * 128 + 1 * (y 1).val = (y 1).val; omega
  | ⟨2, _⟩ => show win0_1.index t (2 : Fin 3) * 8 + 1 * (y 2).val = (y 2).val; omega

/-- So is the product weights'. -/
theorem iblk2_apply (c : Dev nD) (t : Fin cfg0.N) (y : S7x128x8.Idx) : iblk m c 2 t y = V m c main_v128 y := by
  obtain ⟨-, -, -, -, -, e0, e1, e2, -⟩ := index_maps t
  unfold iblk
  show V m c main_v128 (((cfg0.win 2).blk t).view.emb y) = _
  refine congrArg (V m c main_v128) (funext fun a => Fin.ext ?_)
  match a with
  | ⟨0, _⟩ => show win0_2.index t (0 : Fin 3) * 7 + 1 * (y 0).val = (y 0).val; omega
  | ⟨1, _⟩ => show win0_2.index t (1 : Fin 3) * 128 + 1 * (y 1).val = (y 1).val; omega
  | ⟨2, _⟩ => show win0_2.index t (2 : Fin 3) * 8 + 1 * (y 2).val = (y 2).val; omega

/-! ## From the blocks to the array -/

/-- What the body stores at point `t`, read at an index of the block, against a function of the array's index that
    agrees with it on the point's rows: the block's index `(r, j)` lies at row `2048 t + r`, column `j` of the array. -/
theorem stored_at (c : Dev nD) (Gf : (⟨S131072x16, .f32⟩ : BufTy).Contents (Elt F)) (t : Fin cfg0.N)
    (hblk : ∀ (r : Fin 2048) (j : Fin 16), out0_3 (iblk m c 0 t) (iblk m c 1 t) (iblk m c 2 t) (ix2 r j)
      = Gf (ix2 (⟨2048 * t.val + r.val, by have := point_lt t; omega⟩ : Fin 131072) j))
    (y : S2048x16.Idx) :
    out0_3 (iblk m c 0 t) (iblk m c 1 t) (iblk m c 2 t) y = Gf (((cfg0.win 3).blk t).view.emb y) := by
  obtain ⟨-, -, -, -, -, -, -, -, e0, e1⟩ := index_maps t
  obtain ⟨r, j, rfl⟩ : ∃ (r : Fin 2048) (j : Fin 16), y = ix2 r j := ⟨y 0, y 1, eq_ix2 y⟩
  rw [hblk r j]
  refine congrArg Gf (funext fun a => Fin.ext ?_)
  match a with
  | ⟨0, _⟩ => show 2048 * t.val + r.val = win0_3.index t (0 : Fin 2) * 2048 + 1 * r.val; omega
  | ⟨1, _⟩ => show j.val = win0_3.index t (1 : Fin 2) * 16 + 1 * j.val; omega

/-- What point `t` writes back is block `t` of such a function. -/
theorem flushed_eq (c : Dev nD) (Gf : (⟨S131072x16, .f32⟩ : BufTy).Contents (Elt F)) (t : Fin cfg0.N)
    (hblk : ∀ (r : Fin 2048) (j : Fin 16), out0_3 (iblk m c 0 t) (iblk m c 1 t) (iblk m c 2 t) (ix2 r j)
      = Gf (ix2 (⟨2048 * t.val + r.val, by have := point_lt t; omega⟩ : Fin 131072) j)) :
    (dats m 0 c).flushed 3 t = ((cfg0.win 3).blk t).view.read (Elt F) Gf := by
  show (cfg0.win 3).cut (grid0.coords t) ((dats m 0 c).after 3 t) = _
  rw [after0_3]
  funext y
  exact stored_at m c Gf t hblk y

/-- An index of the result is in point `t`'s block iff each coordinate is in the block's range on its axis. -/
theorem mem_out_block (t : Fin cfg0.N) (i : S131072x16.Idx) :
    i ∈ ((cfg0.win 3).blk t).view.set ↔ ∀ a : Fin 2, win0_3.index t a * S2048x16.size a ≤ (i a).val
      ∧ (i a).val < win0_3.index t a * S2048x16.size a + S2048x16.size a := by
  show i ∈ ((View.whole main_v129).slice (win0_3.rect t)).set ↔ _
  rw [View.set_slice_whole, Rect.mem_set_unit]
  exact Iff.rfl

/-- Every index of the result is in the block of the point its row falls to: row `R` in that of point `R / 2048`. -/
theorem out_covered (i : S131072x16.Idx) :
    ∃ t : Fin cfg0.N, (cfg0.win 3).flush t = true ∧ i ∈ ((cfg0.win 3).blk t).view.set := by
  have hi0 : (i 0).val < 131072 := (i 0).isLt
  have hi1 : (i 1).val < 16 := (i 1).isLt
  have hN : (i 0).val / 2048 < cfg0.N := lt_of_lt_of_eq (by omega : (i 0).val / 2048 < 64) N_0.symm
  obtain ⟨-, -, -, -, -, -, -, -, e0, e1⟩ := index_maps ⟨(i 0).val / 2048, hN⟩
  refine ⟨⟨(i 0).val / 2048, hN⟩, flush0_3 _, ?_⟩
  rw [mem_out_block]
  intro a
  match a with
  | ⟨0, _⟩ =>
    show win0_3.index ⟨(i 0).val / 2048, hN⟩ (0 : Fin 2) * 2048 ≤ (i 0).val
      ∧ (i 0).val < win0_3.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_3.index ⟨(i 0).val / 2048, hN⟩ (1 : Fin 2) * 16 ≤ (i 1).val
      ∧ (i 1).val < win0_3.index ⟨(i 0).val / 2048, hN⟩ (1 : Fin 2) * 16 + 16
    rw [e1]; omega

/-- The result array after the last point is any function that agrees, on each point's rows, with what the body
    stores there. -/
theorem arr_of_blocks (c : Dev nD) (Gf : (⟨S131072x16, .f32⟩ : BufTy).Contents (Elt F))
    (hblk : ∀ (t : Fin cfg0.N) (r : Fin 2048) (j : Fin 16), out0_3 (iblk m c 0 t) (iblk m c 1 t) (iblk m c 2 t) (ix2 r j)
      = Gf (ix2 (⟨2048 * t.val + r.val, by have := point_lt t; omega⟩ : Fin 131072) j)) :
    (dats m 0 c).arrAt 3 cfg0.N = Gf :=
  (dats m 0 c).arrAt_eq_of_cover 3 Gf (fun t _ => flushed_eq m c Gf t (hblk t)) out_covered

end Cert.KernelIdeal.Gen.Fr

end
-- ==== Proof.WeightBlocks.lean ====
/-
  The block-diagonal weight tensors the host builds before the region, as functions of a weight column.

  For transform `t` the sixteen rows `16 t … 16 t + 15` of the column are repeated eight times along 128 lanes
  (lane `l` holds row `16 t + l % 16`), spread over eight columns, and multiplied by a constant 0/1 matrix
  `[128, 8]` that is 1 exactly where `l / 16` is the column; the seven `[128, 8]` slabs are stacked into
  `[7, 128, 8]`.
-/
import proofs.«171581_j43276090474799_2_alg».proof.KernelIdeal
import Idealize.ShloMosaic.PureOps.Ideal.Laws

noncomputable section

namespace Cert.KernelIdeal.Weights

open Idealize.ShloMosaic Cert.KernelIdeal
open Cert.KernelIdeal.Facts₀

variable {F : FTy → Type} [FloatOps F] [Cert.KernelIdeal.Facts]

/-- The constant 0/1 matrix, as the host's literal. -/
def maskLit : (⟨S128x8, .f32⟩ : BufTy).Contents (Elt F) := fun i => FloatOps.ofBits .f32 (lit0 (S128x8.rowMajor i))

/-- Sixteen rows of a weight column from row `o` on, repeated along 128 lanes, spread over eight columns and masked. -/
def slab (W : (⟨S112x1, .f32⟩ : BufTy).Contents (Elt F)) (o : Nat) (hs : S112x1.Slices ![o, 0] S16x1) :
    (⟨S128x8, .f32⟩ : BufTy).Contents (Elt F) :=
  mulf
    (broadcastInDim S128x8 ![0, 1] bcast_S128x1_S128x8_0_1
      (broadcastInDim S128x1 ![0] bcast_S128_S128x1_0 fun i =>
        shapeCast S128
          (broadcastInDim S8x16 ![0, 1] bcast_S1x16_S8x16_0_1 fun i =>
            shapeCast S1x16
              (fun i => shapeCast S16 (extractStridedSlice S16x1 ![o, 0] W hs) shapeCasts_S16x1_S16 i)
              shapeCasts_S16_S1x16 i)
          shapeCasts_S8x16_S128 i))
    maskLit

/-- Seven slabs stacked along a new leading axis. -/
def stack7 (b0 b1 b2 b3 b4 b5 b6 : (⟨S128x8, .f32⟩ : BufTy).Contents (Elt F)) : (⟨S7x128x8, .f32⟩ : BufTy).Contents (Elt F) :=
  concatenate S7x128x8 0
    [⟨S1x128x8, broadcastInDim S1x128x8 ![1, 2] bcast_S128x8_S1x128x8_1_2 b0⟩,
     ⟨S1x128x8, broadcastInDim S1x128x8 ![1, 2] bcast_S128x8_S1x128x8_1_2 b1⟩,
     ⟨S1x128x8, broadcastInDim S1x128x8 ![1, 2] bcast_S128x8_S1x128x8_1_2 b2⟩,
     ⟨S1x128x8, broadcastInDim S1x128x8 ![1, 2] bcast_S128x8_S1x128x8_1_2 b3⟩,
     ⟨S1x128x8, broadcastInDim S1x128x8 ![1, 2] bcast_S128x8_S1x128x8_1_2 b4⟩,
     ⟨S1x128x8, broadcastInDim S1x128x8 ![1, 2] bcast_S128x8_S1x128x8_1_2 b5⟩,
     ⟨S1x128x8, broadcastInDim S1x128x8 ![1, 2] bcast_S128x8_S1x128x8_1_2 b6⟩]
    concatenates_S1x128x8_S1x128x8_S1x128x8_S1x128x8_S1x128x8_S1x128x8_S1x128x8_S7x128x8_d0

/-- The whole block-diagonal tensor of a weight column. -/
def blocks (W : (⟨S112x1, .f32⟩ : BufTy).Contents (Elt F)) : (⟨S7x128x8, .f32⟩ : BufTy).Contents (Elt F) :=
  stack7 (slab W 0 slices_S112x1_S16x1_0_0) (slab W 16 slices_S112x1_S16x1_16_0) (slab W 32 slices_S112x1_S16x1_32_0)
    (slab W 48 slices_S112x1_S16x1_48_0) (slab W 64 slices_S112x1_S16x1_64_0) (slab W 80 slices_S112x1_S16x1_80_0)
    (slab W 96 slices_S112x1_S16x1_96_0)

end Cert.KernelIdeal.Weights

end
-- ==== Proof.LibNary7.lean ====
/-
  A host operation with SEVEN operands (a seven-way concatenation): its result with each operand's contents at the
  operand's own reference, so that a fold over a list of host operations can go on reading the operands; and the
  one-pass reading of such a fold.
-/
import Idealize.ShloMosaic.Lib.StableHlo.Run

namespace Idealize.ShloMosaic.StableHlo

variable {τ : Topo} {sig : RefSig} {Val : EltTy → Type}

/-- The result of a seven-operand operation at its own result reference: its function applied to the seven
    operands' contents, each read at its own reference. General in the signature and the value family. -/
theorem nary7_result' {x0 x1 x2 x3 x4 x5 x6 y : Ref sig .tc}
    (f : ((k : Fin 7) → ((![x0, x1, x2, x3, x4, x5, x6] : Fin 7 → Ref sig .tc) k).ty.Contents Val) → y.ty.Contents Val) (hxs hy)
    (F : Valuation τ sig Val) :
    (nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [nary_result]; congr 1; funext k; fin_cases k <;> rfl

/-- Reads `after ops V r` for a literal list of host operations, seven-operand ones included, in one pass: each
    operation's result at its own reference is its function of the operands' contents, and at any other reference
    what was there before. -/
macro "host_results7" : tactic =>
  `(tactic| (simp (disch := decide) only [after_cons, after_nil,
      nullary_result', unary_result', binary_result', ternary_result', quaternary_result', reshape_result', nary7_result',
      nullary_result_ne', unary_result_ne', binary_result_ne', ternary_result_ne', quaternary_result_ne', reshape_result_ne',
      nary_result_ne']))

end Idealize.ShloMosaic.StableHlo
-- ==== Proof.HostPrefix.lean ====
/-
  What the region finds in its three operand arrays: the token matrix re-laid as `[131072, 128]` (eight tokens
  per row), and the two block-diagonal weight tensors, each as a function of the launch contents of the
  argument it is built from. Read off the fold of the host operations that come before the region.
-/
import proofs.«171581_j43276090474799_2_alg».proof.Proof.RegionKI
import proofs.«171581_j43276090474799_2_alg».proof.Proof.WeightBlocks
import proofs.«171581_j43276090474799_2_alg».proof.Proof.LibNary7

set_option maxRecDepth 16384

noncomputable section

namespace Cert.KernelIdeal.Gen.Fr

open Idealize.ShloMosaic Idealize.ShloMosaic.StableHlo Idealize.ShloMosaic.TcCoe Idealize.SL.Sem
open Cert.KernelIdeal.Weights

variable {F : FTy → Type} [FloatOps F]
variable (m : (ℓ : Loc nD τ sig) → Buf (Elt F) ℓ)

set_option maxHeartbeats 4000000 in
/-- The packed token matrix is the token matrix re-laid. -/
theorem V_packed (c : Dev nD) :
    (V m c main_v0 : (⟨S131072x128, .f32⟩ : BufTy).Contents (Elt F))
      = fun i => shapeCast S131072x128 (m ((c : Thread nD τ).loc main_arg0)) shapeCasts_S1048576x16_S131072x128 i := by
  show StableHlo.after hostOps0 (fun b => m (c, b)) (Proc.devRef .tc main_v0) = _
  host_results7
  rfl

set_option maxHeartbeats 16000000 in
/-- The sum weights' tensor is the block-diagonal tensor of the first weight column. -/
theorem V_sumBlocks (c : Dev nD) :
    (V m c main_v64 : (⟨S7x128x8, .f32⟩ : BufTy).Contents (Elt F)) = blocks (m ((c : Thread nD τ).loc main_arg1)) := by
  show StableHlo.after hostOps0 (fun b => m (c, b)) (Proc.devRef .tc main_v64) = _
  host_results7
  rfl

set_option maxHeartbeats 16000000 in
/-- The product weights' tensor is the block-diagonal tensor of the second weight column. -/
theorem V_prodBlocks (c : Dev nD) :
    (V m c main_v128 : (⟨S7x128x8, .f32⟩ : BufTy).Contents (Elt F)) = blocks (m ((c : Thread nD τ).loc main_arg2)) := by
  show StableHlo.after hostOps0 (fun b => m (c, b)) (Proc.devRef .tc main_v128) = _
  host_results7
  rfl

end Cert.KernelIdeal.Gen.Fr

end
-- ==== Proof.LibLogistic.lean ====
/-
  The logistic function on the extended reals, in the two spellings float programs use:
      ½·(tanh(½·v) + 1)      (one transcendental, no division)     and     1 / (1 + e^{-v}),
  with the literals `0.5` and `1.0` as f32 patterns. They are ONE function on every extended real: at +∞ both are 1,
  at −∞ both are 0 (tanh(±∞) = ±1, e^{-∞} = 0, 1/(+∞) = 0), and on the reals it is the identity
  tanh(r/2) = (1 − e^{-r})/(1 + e^{-r}). The second spelling is the ideal instance's own `logistic`.
-/
import Idealize.ShloMosaic.PureOps.Ideal

noncomputable section

namespace Logistic

open Idealize.ShloMosaic

/-! ## The two float literals of the spelling through the hyperbolic tangent -/

/-- The pattern of `0.5`. -/
abbrev cHalf : EReal := Ideal.ofBits .f32 0x3F000000#32
/-- The pattern of `1.0`. -/
abbrev cOne : EReal := Ideal.ofBits .f32 0x3F800000#32

/-- `0.5` denotes the real one half. -/
theorem cHalf_val : cHalf = ((1 / 2 : ℝ) : EReal) := by
  show Ideal.ofBits .f32 0x3F000000#32 = _
  simp [Ideal.ofBits, Ideal.ieee, -EReal.coe_mul]; norm_num

/-- `1.0` denotes one. -/
theorem cOne_val : cOne = 1 := by
  show Ideal.ofBits .f32 0x3F800000#32 = _
  simp [Ideal.ofBits, Ideal.ieee, -EReal.coe_mul]; norm_num

/-! ## The logistic function, twice -/

/-- The logistic function through the hyperbolic tangent: ½·(tanh(½·v) + 1). -/
def sigT (v : EReal) : EReal := cHalf * (Ideal.tanh (cHalf * v) + cOne)

/-- The logistic function through the exponential: 1 / (1 + e^{-v}). -/
def sigE (v : EReal) : EReal := Ideal.div cOne (cOne + Ideal.exp (-v))

/-- On the reals: ½·(tanh(r/2) + 1) = 1/(1 + e^{-r}). With b = e^{-r/2}, tanh(r/2) = (b⁻¹ − b)/(b⁻¹ + b) and
    e^{-r} = b². -/
theorem real_sigmoid (r : ℝ) : (1 / 2 : ℝ) * (Real.tanh ((1 / 2 : ℝ) * r) + 1) = (1 + Real.exp (-r))⁻¹ := by
  have hb : 0 < Real.exp (-((1 / 2 : ℝ) * r)) := Real.exp_pos _
  have hab : Real.exp ((1 / 2 : ℝ) * r) * Real.exp (-((1 / 2 : ℝ) * r)) = 1 := by
    rw [← Real.exp_add, add_neg_cancel, Real.exp_zero]
  have hb2 : Real.exp (-r) = Real.exp (-((1 / 2 : ℝ) * r)) * Real.exp (-((1 / 2 : ℝ) * r)) := by
    rw [← Real.exp_add]; congr 1; ring
  rw [Real.tanh_eq_sinh_div_cosh, Real.sinh_eq, Real.cosh_eq, hb2]
  generalize Real.exp (-((1 / 2 : ℝ) * r)) = b at *
  have ha : Real.exp ((1 / 2 : ℝ) * r) = b⁻¹ := eq_inv_of_mul_eq_one_left hab
  rw [ha]
  have h1 : b ≠ 0 := hb.ne'
  have h2 : (1 + b * b) ≠ 0 := by positivity
  have h3 : b⁻¹ + b ≠ 0 := by positivity
  field_simp
  ring

/-- The two spellings are one function on every extended real. -/
theorem sigT_eq_sigE (v : EReal) : sigT v = sigE v := by
  have hE : sigE v = Ideal.logistic v := by
    unfold sigE; rw [cOne_val]; rfl
  rw [hE]; unfold sigT; rw [cHalf_val, cOne_val]
  induction v using EReal.rec
  · -- −∞: ½·(tanh(−∞) + 1) = ½·(−1 + 1) = 0
    rw [EReal.coe_mul_bot_of_pos (by norm_num), Ideal.tanh_bot, Ideal.logistic_bot]
    have h0 : (-1 : EReal) + 1 = 0 := by
      rw [show (-1 : EReal) = ((-1 : ℝ) : EReal) by norm_num, ← EReal.coe_one, ← EReal.coe_add]; norm_num
    rw [h0, mul_zero]
  · -- a real
    rename_i r
    rw [← EReal.coe_mul, Ideal.tanh_coe, Ideal.logistic_coe, ← EReal.coe_one, ← EReal.coe_add, ← EReal.coe_mul,
      real_sigmoid]
  · -- +∞: ½·(tanh(+∞) + 1) = ½·2 = 1
    rw [EReal.coe_mul_top_of_pos (by norm_num), Ideal.tanh_top, Ideal.logistic_top]
    rw [← EReal.coe_one, ← EReal.coe_add, ← EReal.coe_mul]; norm_num

/-- The spelling through the exponential is the ideal instance's `logistic`. -/
theorem sigE_eq_logistic (v : EReal) : sigE v = Ideal.logistic v := by
  unfold sigE; rw [cOne_val]; rfl

end Logistic

end
-- ==== Proof.WeightRead.lean ====
/-
  The block-diagonal weight tensor read at an index, at the extended reals: entry `(t, l, q)` is row
  `16 t + l % 16` of the weight column when lane `l` belongs to token `q` of its row (`l / 16 = q`), times one,
  and that row times zero otherwise.
-/
import proofs.«171581_j43276090474799_2_alg».proof.Proof.WeightBlocks
import proofs.«171581_j43276090474799_2_alg».proof.Proof.LibLogistic
import Idealize.ShloMosaic.Lib.Pipeline.Value
import Idealize.ShloMosaic.Lib.ValueIdx

set_option maxRecDepth 16384

noncomputable section

namespace Cert.KernelIdeal.Weights

open Idealize.ShloMosaic Idealize.ShloMosaic.ValueIdx Cert.KernelIdeal
open Cert.KernelIdeal.Facts₀

variable [Cert.KernelIdeal.Facts]

/-- The literal table of the 0/1 matrix: entry `8 l + q` is the pattern of `1.0` when `l / 16 = q`, else zero. -/
theorem lit0_eq : ∀ i : Fin 1024, lit0 i = if i.val / 8 / 16 = i.val % 8 then 0x3F800000#32 else 0x00000000#32 := by
  decide +kernel

/-- The 0/1 matrix at `(l, q)`: one when lane `l` belongs to token `q`, else zero. -/
theorem maskLit_apply (l : Fin 128) (q : Fin 8) :
    maskLit (F := Ideal) (ix2 l q) = if l.val / 16 = q.val then 1 else 0 := by
  unfold maskLit
  have hr : (S128x8.rowMajor (ix2 l q)) = (⟨l.val * 8 + q.val, by omega⟩ : Fin 1024) :=
    Fin.ext (by rw [Shape.rowMajor_val_two]; rfl)
  show Ideal.ofBits .f32 (lit0 (S128x8.rowMajor (ix2 l q))) = _
  rw [hr, lit0_eq]
  have h1 : (l.val * 8 + q.val) / 8 = l.val := by omega
  have h2 : (l.val * 8 + q.val) % 8 = q.val := by omega
  show Ideal.ofBits .f32 (if (l.val * 8 + q.val) / 8 / 16 = (l.val * 8 + q.val) % 8 then _ else _) = _
  rw [h1, h2]
  by_cases h : l.val / 16 = q.val
  · rw [if_pos h, if_pos h]; exact Logistic.cOne_val
  · rw [if_neg h, if_neg h]; exact Ideal.ofBits_zero_f32

/-- One slab at `(l, q)`: row `o + l % 16` of the column, times the 0/1 matrix's entry. -/
theorem slab_apply (W : (⟨S112x1, .f32⟩ : BufTy).Contents (Elt Ideal)) (o : Nat) (hs : S112x1.Slices ![o, 0] S16x1)
    (ho : o + 16 ≤ 112) (l : Fin 128) (q : Fin 8) :
    slab (F := Ideal) W o hs (ix2 l q)
      = W (ix2 (⟨o + l.val % 16, by omega⟩ : Fin 112) (0 : Fin 1)) * (if l.val / 16 = q.val then 1 else 0) := by
  unfold slab
  rw [ValueIdx.mulf_apply, maskLit_apply]
  congr 1
  refine (broadcastInDim_apply _ bcast_S128x1_S128x8_0_1 _ (ix2 l q) (ix2 l (0 : Fin 1))
    (fun a => by match a with | ⟨0, _⟩ => rfl | ⟨1, _⟩ => rfl)).trans ?_
  refine (broadcastInDim_apply _ bcast_S128_S128x1_0 _ (ix2 l (0 : Fin 1)) (ix1 l)
    (fun a => by match a with | ⟨0, _⟩ => rfl)).trans ?_
  show shapeCast S128 _ shapeCasts_S8x16_S128 (ix1 l) = _
  refine (shapeCast_apply _ shapeCasts_S8x16_S128 (ix1 l)
    (ix2 (⟨l.val / 16, by omega⟩ : Fin 8) (⟨l.val % 16, by omega⟩ : Fin 16))
    (by rw [Shape.rowMajor_val_two, Shape.rowMajor_val_one]; show l.val / 16 * 16 + l.val % 16 = l.val; omega)).trans ?_
  refine (broadcastInDim_apply _ bcast_S1x16_S8x16_0_1 _ _ (ix2 (0 : Fin 1) (⟨l.val % 16, by omega⟩ : Fin 16))
    (fun a => by match a with | ⟨0, _⟩ => rfl | ⟨1, _⟩ => rfl)).trans ?_
  show shapeCast S1x16 _ shapeCasts_S16_S1x16 _ = _
  refine (shapeCast_apply _ shapeCasts_S16_S1x16 _ (ix1 (⟨l.val % 16, by omega⟩ : Fin 16))
    (by rw [Shape.rowMajor_val_two, Shape.rowMajor_val_one]; show l.val % 16 = 0 * 16 + l.val % 16; omega)).trans ?_
  show shapeCast S16 _ shapeCasts_S16x1_S16 _ = _
  refine (shapeCast_apply _ shapeCasts_S16x1_S16 _ (ix2 (⟨l.val % 16, by omega⟩ : Fin 16) (0 : Fin 1))
    (by rw [Shape.rowMajor_val_two, Shape.rowMajor_val_one]; show l.val % 16 * 1 + 0 = l.val % 16; omega)).trans ?_
  exact extractStridedSlice_apply _ W hs _ _ (fun a => by match a with | ⟨0, _⟩ => rfl | ⟨1, _⟩ => rfl)

/-- Piece `K` of a stack along a new leading axis, read at `(t, l, q)` with `t = K`. -/
theorem stack_piece (xs : List ((s : Shape) × (s.Idx → EReal))) (h : Shape.Concatenates (xs.map (·.1)) S7x128x8 0)
    (K : Nat) (hK : K < xs.length) (x₁ : S128x8.Idx → EReal)
    (hxk : xs[K] = ⟨S1x128x8, broadcastInDim S1x128x8 ![1, 2] bcast_S128x8_S1x128x8_1_2 x₁⟩)
    (hpre : (((xs.take K).map (·.1)).map fun s => if h : s.rank = S7x128x8.rank then s.size ((0 : Fin S7x128x8.rank).cast h.symm) else 0).sum = K)
    (t : Fin 7) (ht : K = t.val) (l : Fin 128) (q : Fin 8) :
    concatenate S7x128x8 0 xs h (ix3 t l q) = x₁ (ix2 l q) := by
  refine (concatenate_apply_piece (0 : Fin 3) xs h (ix3 t l q) K hK S1x128x8 _ hxk rfl K hpre (ix3 (0 : Fin 1) l q)
    (fun b hb => ?_) ?_).trans ?_
  · match b, hb with
    | ⟨0, _⟩, hb => exact absurd rfl hb
    | ⟨1, _⟩, _ => rfl
    | ⟨2, _⟩, _ => rfl
  · show K + 0 = t.val
    omega
  · exact broadcastInDim_apply _ bcast_S128x8_S1x128x8_1_2 x₁ _ _ (fun a => by match a with | ⟨0, _⟩ => rfl | ⟨1, _⟩ => rfl)

/-- The stack at `(t, l, q)` is slab `t` at `(l, q)`. -/
theorem stack7_apply (b : Fin 7 → (S128x8.Idx → EReal)) (t : Fin 7) (l : Fin 128) (q : Fin 8) :
    stack7 (F := Ideal) (b 0) (b 1) (b 2) (b 3) (b 4) (b 5) (b 6) (ix3 t l q) = b t (ix2 l q) := by
  unfold stack7
  fin_cases t
  · exact stack_piece _ _ 0 (by simp) (b 0) rfl rfl _ rfl l q
  · exact stack_piece _ _ 1 (by simp) (b 1) rfl rfl _ rfl l q
  · exact stack_piece _ _ 2 (by simp) (b 2) rfl rfl _ rfl l q
  · exact stack_piece _ _ 3 (by simp) (b 3) rfl rfl _ rfl l q
  · exact stack_piece _ _ 4 (by simp) (b 4) rfl rfl _ rfl l q
  · exact stack_piece _ _ 5 (by simp) (b 5) rfl rfl _ rfl l q
  · exact stack_piece _ _ 6 (by simp) (b 6) rfl rfl _ rfl l q

/-- The block-diagonal tensor at `(t, l, q)`. -/
theorem blocks_apply (W : (⟨S112x1, .f32⟩ : BufTy).Contents (Elt Ideal)) (t : Fin 7) (l : Fin 128) (q : Fin 8) :
    blocks (F := Ideal) W (ix3 t l q)
      = W (ix2 (⟨t.val * 16 + l.val % 16, by omega⟩ : Fin 112) (0 : Fin 1)) * (if l.val / 16 = q.val then 1 else 0) := by
  unfold blocks
  refine (stack7_apply ![slab W 0 slices_S112x1_S16x1_0_0, slab W 16 slices_S112x1_S16x1_16_0, slab W 32 slices_S112x1_S16x1_32_0,
    slab W 48 slices_S112x1_S16x1_48_0, slab W 64 slices_S112x1_S16x1_64_0, slab W 80 slices_S112x1_S16x1_80_0,
    slab W 96 slices_S112x1_S16x1_96_0] t l q).trans ?_
  fin_cases t
  · exact slab_apply W 0 _ (by omega) l q
  · exact slab_apply W 16 _ (by omega) l q
  · exact slab_apply W 32 _ (by omega) l q
  · exact slab_apply W 48 _ (by omega) l q
  · exact slab_apply W 64 _ (by omega) l q
  · exact slab_apply W 80 _ (by omega) l q
  · exact slab_apply W 96 _ (by omega) l q

end Cert.KernelIdeal.Weights

end
-- ==== Proof.Spec.lean ====
/-
  The function both programs compute, on the extended reals.

  A token `b` has sixteen features `x(b, d)`. Seven transforms are applied to each feature — the identity, sine,
  cosine, hyperbolic tangent, exponential, log-magnitude and the logistic function — giving 112 values
  `tf t (x(b, d))`, the one for transform `t` and feature `d` paired with row `16 t + d` of a weight column. The
  result's first column is the weighted sum of the 112 values, its second the exponential of the weighted sum of
  their log-magnitudes (a weighted geometric product).
-/
import Idealize.ShloMosaic.PureOps.Ideal.Laws
import Idealize.ShloMosaic.Lib.ValueIdx

noncomputable section

namespace Cert.Spec

open Idealize.ShloMosaic Idealize.ShloMosaic.ValueIdx

/-- The seven feature transforms. -/
def tf : Fin 7 → EReal → EReal
  | ⟨0, _⟩, v => v
  | ⟨1, _⟩, v => Ideal.sin v
  | ⟨2, _⟩, v => Ideal.cos v
  | ⟨3, _⟩, v => Ideal.tanh v
  | ⟨4, _⟩, v => Ideal.exp v
  | ⟨5, _⟩, v => Ideal.log (max v (-v))
  | ⟨6, _⟩, v => Ideal.logistic v

/-- The log-magnitude `log |v|`. -/
def lm (v : EReal) : EReal := Ideal.log (max v (-v))

/-- Row `16 t + d` of a weight column. -/
abbrev wrow (t : Fin 7) (d : Fin 16) : Fin 112 := ⟨t.val * 16 + d.val, by omega⟩

/-- The weighted sum of the 112 transformed features of token `b`. -/
def wsum (x : (⟨2, ![1048576, 16]⟩ : Shape).Idx → EReal) (w : (⟨2, ![112, 1]⟩ : Shape).Idx → EReal) (b : Fin 1048576) : EReal :=
  ∑ t : Fin 7, ∑ d : Fin 16, tf t (x (ix2 b d)) * w (ix2 (wrow t d) (0 : Fin 1))

/-- The weighted sum of their log-magnitudes. -/
def wlog (x : (⟨2, ![1048576, 16]⟩ : Shape).Idx → EReal) (w : (⟨2, ![112, 1]⟩ : Shape).Idx → EReal) (b : Fin 1048576) : EReal :=
  ∑ t : Fin 7, ∑ d : Fin 16, lm (tf t (x (ix2 b d))) * w (ix2 (wrow t d) (0 : Fin 1))

/-- The result: per token, the weighted sum beside the weighted geometric product. -/
def G (x : (⟨2, ![1048576, 16]⟩ : Shape).Idx → EReal) (ws wp : (⟨2, ![112, 1]⟩ : Shape).Idx → EReal) :
    (⟨2, ![1048576, 2]⟩ : Shape).Idx → EReal := fun i =>
  if (i 1).val = 0 then wsum x ws (i 0) else Ideal.exp (wlog x wp (i 0))

theorem G_sum (x ws wp) (b : Fin 1048576) : G x ws wp (ix2 b (0 : Fin 2)) = wsum x ws b := by
  unfold G; rw [if_pos (by rfl)]
theorem G_prod (x ws wp) (b : Fin 1048576) : G x ws wp (ix2 b (1 : Fin 2)) = Ideal.exp (wlog x wp b) := by
  unfold G; rw [if_neg (show ¬ ((1 : Fin 2).val = 0) by decide)]

end Cert.Spec

end
-- ==== Proof.LibSumBlocks.lean ====
/-
  Splitting a finite sum over a product extent into nested sums over its factors.
-/
import Mathlib.Algebra.BigOperators.Fin

open scoped BigOperators

namespace Cert.LibSumBlocks

/-- The position of entry `q` of block `p`, for blocks of length `b`, lies below `a * b`
when there are `a` blocks. -/
theorem blk_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

/-- A sum over `Fin (a * b)` is the sum over the `a` consecutive blocks of length `b` of the sum
inside each block: entry `q` of block `p` sits at position `p * b + q`. -/
theorem sum_fin_blocks2 {M : Type*} [AddCommMonoid M] (a b : ℕ) (f : Fin (a * b) → M) :
    ∑ i, f i = ∑ p : Fin a, ∑ q : Fin b, f ⟨p.val * b + q.val, blk_lt p.isLt q.isLt⟩ := by
  rw [← Equiv.sum_comp finProdFinEquiv f, Fintype.sum_prod_type]
  refine Finset.sum_congr rfl fun p _ => Finset.sum_congr rfl fun q _ => congrArg f (Fin.ext ?_)
  show q.val + b * p.val = p.val * b + q.val
  rw [Nat.mul_comm, Nat.add_comm]

/-- A sum over `Fin (a * b * c)` is a triple nested sum: the index range is cut into `a` blocks,
each block into `b` sub-blocks of length `c`; entry `s` of sub-block `q` of block `p` sits at
position `(p * b + q) * c + s`. -/
theorem sum_fin_blocks3 {M : Type*} [AddCommMonoid M] (a b c : ℕ) (f : Fin (a * b * c) → M) :
    ∑ i, f i = ∑ p : Fin a, ∑ q : Fin b, ∑ s : Fin c,
      f ⟨(p.val * b + q.val) * c + s.val, blk_lt (blk_lt p.isLt q.isLt) s.isLt⟩ :=
  (sum_fin_blocks2 (a * b) c f).trans
    (sum_fin_blocks2 a b fun pq : Fin (a * b) =>
      ∑ s : Fin c, f ⟨pq.val * c + s.val, blk_lt pq.isLt s.isLt⟩)

/-- The triple split of `sum_fin_blocks3` for an extent `n` given with a proof that it is the
product `a * b * c`, so that `n` may be a numeral. -/
theorem sum_fin_blocks3_of_eq {M : Type*} [AddCommMonoid M] (n a b c : ℕ) (h : n = a * b * c)
    (f : Fin n → M) :
    ∑ i, f i = ∑ p : Fin a, ∑ q : Fin b, ∑ s : Fin c,
      f ⟨(p.val * b + q.val) * c + s.val, h ▸ blk_lt (blk_lt p.isLt q.isLt) s.isLt⟩ := by
  subst h
  exact sum_fin_blocks3 a b c f

/-- A sum over the 32768 rows, cut into 2 halves of 8 blocks of 2048 rows each: row `s` of block
`q` of half `p` is row `(p * 8 + q) * 2048 + s`. -/
theorem sum_rows_32768 {M : Type*} [AddCommMonoid M] (f : Fin 32768 → M) :
    ∑ i : Fin 32768, f i = ∑ p : Fin 2, ∑ q : Fin 8, ∑ s : Fin 2048,
      f ⟨(p.val * 8 + q.val) * 2048 + s.val, by omega⟩ :=
  sum_fin_blocks3_of_eq 32768 2 8 2048 (by decide) f

end Cert.LibSumBlocks
-- ==== Proof.Laws.lean ====
/-
  The laws on the extended reals that join the two programs.

  * A row of 128 lanes holds eight tokens of sixteen features. Against a weight whose lane `l` is multiplied by
    the indicator of `l / 16 = j`, the sum over the 128 lanes is the sum over the sixteen lanes of token `j`:
    off the token's lanes the term is `a · (u · 0) = 0`, on them `a · (u · 1) = a · u`. Both hold for every
    extended real, infinities included, so no finiteness is needed.
  * A sum over 112 rows is the sum over seven groups of sixteen.
  * Seven terms accumulated left to right from zero are their sum.
  * The log-magnitude of an exponential is its argument, on every extended real.
-/
import proofs.«171581_j43276090474799_2_alg».proof.Proof.Spec
import proofs.«171581_j43276090474799_2_alg».proof.Proof.LibSumBlocks
import proofs.«171581_j43276090474799_2_alg».proof.Proof.LibLogistic

noncomputable section

namespace Cert.Laws

open Idealize.ShloMosaic
open scoped BigOperators

/-- Lane `16 j + d`: feature `d` of the `j`-th token of a row. -/
abbrev lane (j : Fin 8) (d : Fin 16) : Fin 128 := ⟨j.val * 16 + d.val, by omega⟩

/-- The sum over a row's 128 lanes against a weight masked to token `j`'s lanes is the sum over that token's
    sixteen lanes. -/
theorem sum_masked (a u μ : Fin 128 → EReal) (j : Fin 8)
    (hμ : ∀ l : Fin 128, μ l = if l.val / 16 = j.val then 1 else 0) :
    ∑ l : Fin 128, a l * (u l * μ l) = ∑ d : Fin 16, a (lane j d) * u (lane j d) := by
  rw [Cert.LibSumBlocks.sum_fin_blocks2 8 16 (fun l : Fin 128 => a l * (u l * μ l))]
  rw [Finset.sum_eq_single j]
  · refine Finset.sum_congr rfl fun d _ => ?_
    have h : μ (lane j d) = 1 := by
      rw [hμ]; rw [if_pos]; show (j.val * 16 + d.val) / 16 = j.val; omega
    show a (lane j d) * (u (lane j d) * μ (lane j d)) = _
    rw [h, mul_one]
  · intro p _ hp
    refine Finset.sum_eq_zero fun d _ => ?_
    have h : μ (lane p d) = 0 := by
      rw [hμ]; rw [if_neg]; show ¬ (p.val * 16 + d.val) / 16 = j.val
      intro e; apply hp; apply Fin.ext; omega
    show a (lane p d) * (u (lane p d) * μ (lane p d)) = 0
    rw [h, mul_zero, mul_zero]
  · intro h; exact absurd (Finset.mem_univ j) h

/-- A sum over the 112 rows of a weight column is the sum over seven groups of sixteen. -/
theorem sum_rows (h : Fin 112 → EReal) :
    ∑ k : Fin 112, h k = ∑ t : Fin 7, ∑ d : Fin 16, h (Cert.Spec.wrow t d) :=
  Cert.LibSumBlocks.sum_fin_blocks2 7 16 h

/-- Seven terms accumulated left to right from zero are their sum. -/
theorem acc_seven (M : Fin 7 → EReal) :
    ((((((((0 : EReal) + M 0) + M 1) + M 2) + M 3) + M 4) + M 5) + M 6) = ∑ t : Fin 7, M t := by
  rw [Fin.sum_univ_seven, zero_add]

/-- The log-magnitude of an exponential is its argument: `e^⊥ = 0` and `log 0 = ⊥`; `e^⊤ = ⊤ = log ⊤`; and on a
    real `r`, `e^r > 0` is its own magnitude and `log e^r = r`. -/
theorem lm_exp (v : EReal) : Cert.Spec.lm (Ideal.exp v) = v := by
  unfold Cert.Spec.lm
  induction v using EReal.rec with
  | bot => rw [Ideal.exp_bot, neg_zero, max_self, ← EReal.coe_zero, Ideal.log_coe, if_pos le_rfl]
  | top => rw [Ideal.exp_top, max_eq_left le_top, Ideal.log_top]
  | coe r =>
    rw [Ideal.exp_coe]
    have hp : (0 : ℝ) < Real.exp r := Real.exp_pos r
    have hm : max ((Real.exp r : ℝ) : EReal) (-((Real.exp r : ℝ) : EReal)) = ((Real.exp r : ℝ) : EReal) := by
      apply max_eq_left
      rw [← EReal.coe_neg, EReal.coe_le_coe_iff]; linarith
    rw [hm, Ideal.log_coe, if_neg (not_le.mpr hp), Real.log_exp]

/-- The quotient `1 / (1 + e^{-v})` spelt with the pattern of `1.0` is the logistic function. -/
theorem div_one_eq_logistic (v : EReal) :
    Ideal.div (Ideal.ofBits .f32 0x3F800000#32) (Ideal.ofBits .f32 0x3F800000#32 + Ideal.exp (-v)) = Ideal.logistic v :=
  Logistic.sigE_eq_logistic v

end Cert.Laws

end
-- ==== Proof.LibPlainDot.lean ====
/-
  A matrix product "rows by columns" read at an index, at the ideal instance.

  For dimension numbers that contract the left operand's second axis with the right operand's first one and
  have no batch axis — an `M×K` matrix times a `K×N` matrix —, the element `(r, c)` of the product is
  `∑ k : Fin K, A (r, k) * B (k, c)`:
  * for the host's `dot_general` (no accumulator), and
  * for the matrix unit's `matmul` into the all-zero accumulator.
  Both are the same sum over the ONE coordinate `k` of the contracted axis, so a product computed in row
  blocks and a product computed whole agree element by element. General in `M`, `K`, `N`, the dimension-number
  record (any record whose six lists are the plain ones) and the operands' float formats.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract the left operand's axis 1 with the right operand's
    axis 0; the result's axes are the left operand's axis 0, then the right operand's axis 1; no batch axis. -/
structure Plain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The left operand's row coordinate is the result's row coordinate. -/
theorem lhs_row (d : DotDims ⟨2, ![M, K]⟩ ⟨2, ![K, N]⟩ ⟨2, ![M, N]⟩) (P : Plain d)
    (j : (⟨2, ![M, N]⟩ : Shape).Idx) (q : d.contr.Idx) : (d.lhsIdx j q 0).val = (j 0).val := by
  unfold DotDims.lhsIdx
  rw [dif_neg (show ¬ (0 : Fin (⟨2, ![M, K]⟩ : Shape).rank) ∈ d.lhsBatch by rw [P.lb]; simp),
    dif_pos (show (0 : Fin (⟨2, ![M, K]⟩ : Shape).rank) ∈ d.lhsNonContracting by rw [P.ln]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln])

/-- The right operand's column coordinate is the result's column coordinate. -/
theorem rhs_col (d : DotDims ⟨2, ![M, K]⟩ ⟨2, ![K, N]⟩ ⟨2, ![M, N]⟩) (P : Plain d)
    (j : (⟨2, ![M, N]⟩ : Shape).Idx) (q : d.contr.Idx) : (d.rhsIdx j q 1).val = (j 1).val := by
  unfold DotDims.rhsIdx
  rw [dif_neg (show ¬ (1 : Fin (⟨2, ![K, N]⟩ : Shape).rank) ∈ d.rhsBatch by rw [P.rb]; simp),
    dif_pos (show (1 : Fin (⟨2, ![K, N]⟩ : Shape).rank) ∈ d.rhsNonContracting by rw [P.rn]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln, P.rn])

/-- The left operand is read at (row of the result, the contracted coordinate). -/
theorem lhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.lhsIdx j ((contrEquiv1 d K hr hs).symm k) = ix2 (j 0) k := by
  have hk := contrEquiv1_symm_val d K hr hs k
  funext a
  apply Fin.ext
  match a with
  | ⟨0, _⟩ => exact lhs_row d P j _
  | ⟨1, _⟩ => exact (d.lhsIdx_val_of_single P.lc j _).trans hk

/-- The right operand is read at (the contracted coordinate, column of the result). -/
theorem rhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.rhsIdx j ((contrEquiv1 d K hr hs).symm k) = ix2 k (j 1) := by
  have hk := contrEquiv1_symm_val d K hr hs k
  funext a
  apply Fin.ext
  match a with
  | ⟨0, _⟩ => exact (d.rhsIdx_val_of_single P.rc j _).trans hk
  | ⟨1, _⟩ => exact rhs_col d P j _

/-- The sum over the contraction index, re-indexed by the contracted axis's one coordinate. -/
theorem sum_contr (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (A : FVec Ideal ⟨2, ![M, K]⟩ φ₁) (B : FVec Ideal ⟨2, ![K, N]⟩ φ₂)
    (j : (⟨2, ![M, N]⟩ : Shape).Idx) :
    (∑ q : d.contr.Idx, A (d.lhsIdx j q) * B (d.rhsIdx j q)) = ∑ k : Fin K, A (ix2 (j 0) k) * B (ix2 k (j 1)) := by
  rw [← Equiv.sum_comp (contrEquiv1 d K hr hs).symm]
  refine Finset.sum_congr rfl fun k _ => ?_
  rw [lhsIdx_eq d P hr hs j k, rhsIdx_eq d P hr hs j k]
  rfl

/-- The host's product at an index: the sum over the contracted coordinate. -/
theorem dotGeneral_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral d prec sched A B j = ∑ k : Fin K, A (ix2 (j 0) k) * B (ix2 k (j 1)) := by
  rw [Ideal.dotGeneral_apply]
  exact sum_contr d P hr hs A B j

/-- The matrix unit's product into the zero accumulator at an index: the same sum. -/
theorem matmul_zero_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ k : Fin K, A (ix2 (j 0) k) * B (ix2 k (j 1)) := by
  rw [Ideal.matmul_constant_zero_apply]
  exact sum_contr d P hr hs A B j

end PlainDot

end
-- ==== Proof.LibConcatParts.lean ====
/-
  Concatenations read piece by piece, over generic extents.

  * Three matrices with the same rows set side by side along the column axis: at (p, k) the result is the first at
    (p, k) for k below its width, the second at (p, k − b₁) for k in the next b₂ columns, the third at
    (p, k − b₁ − b₂) above that.
  * Three vectors, and two vectors, laid end to end: the same reading along the one axis.
-/
import Idealize.ShloMosaic.Lib.Pipeline.Value
import Idealize.ShloMosaic.Lib.ValueIdx

noncomputable section

open Idealize.ShloMosaic Idealize.ShloMosaic.ValueIdx

namespace KerHostLayout

variable {α : Type}

/-! ## Three matrices side by side -/

section Cols3
variable {a b₁ b₂ b₃ b : ℕ} (x₁ : (⟨2, ![a, b₁]⟩ : Shape).Idx → α) (x₂ : (⟨2, ![a, b₂]⟩ : Shape).Idx → α)
  (x₃ : (⟨2, ![a, b₃]⟩ : Shape).Idx → α)
  (h : Shape.Concatenates [(⟨2, ![a, b₁]⟩ : Shape), ⟨2, ![a, b₂]⟩, ⟨2, ![a, b₃]⟩] ⟨2, ![a, b]⟩ 1)

/-- `[x₁ | x₂ | x₃]` read at a column of the first part. -/
theorem concat3_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₁ (ix2 p q) :=
  concatenate_apply_piece 1 [⟨⟨2, ![a, b₁]⟩, x₁⟩, ⟨⟨2, ![a, b₂]⟩, x₂⟩, ⟨⟨2, ![a, b₃]⟩, x₃⟩] h (ix2 p k) 0 (by show 0 < 3; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂ | x₃]` read at a column of the second part. -/
theorem concat3_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₂ (ix2 p q) :=
  concatenate_apply_piece 1 [⟨⟨2, ![a, b₁]⟩, x₁⟩, ⟨⟨2, ![a, b₂]⟩, x₂⟩, ⟨⟨2, ![a, b₃]⟩, x₃⟩] h (ix2 p k) 1 (by show 1 < 3; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

/-- `[x₁ | x₂ | x₃]` read at a column of the third part. -/
theorem concat3_cols_trd (p : Fin a) (k : Fin b) (q : Fin b₃) (hq : b₁ + b₂ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₃ (ix2 p q) :=
  concatenate_apply_piece 1 [⟨⟨2, ![a, b₁]⟩, x₁⟩, ⟨⟨2, ![a, b₂]⟩, x₂⟩, ⟨⟨2, ![a, b₃]⟩, x₃⟩] h (ix2 p k) 2 (by show 2 < 3; omega)
    ⟨2, ![a, b₃]⟩ x₃ rfl rfl (b₁ + b₂) (by simp) (ix2 p q)
    (fun c hc => by
      match c with
      | ⟨0, _⟩ => rfl
      | ⟨1, _⟩ => exact absurd rfl hc)
    (by show b₁ + b₂ + q.val = k.val; omega)

end Cols3

/-! ## Two matrices side by side -/

section Cols2
variable {a b₁ b₂ b : ℕ} (x₁ : (⟨2, ![a, b₁]⟩ : Shape).Idx → α) (x₂ : (⟨2, ![a, b₂]⟩ : Shape).Idx → α)
  (h : Shape.Concatenates [(⟨2, ![a, b₁]⟩ : Shape), ⟨2, ![a, b₂]⟩] ⟨2, ![a, b]⟩ 1)

/-- `[x₁ | x₂]` read at a column of the first part. -/
theorem concat2_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩] h (ix2 p k) = x₁ (ix2 p q) :=
  concatenate_apply_piece 1 [⟨⟨2, ![a, b₁]⟩, x₁⟩, ⟨⟨2, ![a, b₂]⟩, x₂⟩] h (ix2 p k) 0 (by show 0 < 2; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂]` read at a column of the second part. -/
theorem concat2_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩] h (ix2 p k) = x₂ (ix2 p q) :=
  concatenate_apply_piece 1 [⟨⟨2, ![a, b₁]⟩, x₁⟩, ⟨⟨2, ![a, b₂]⟩, x₂⟩] h (ix2 p k) 1 (by show 1 < 2; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

end Cols2

/-! ## Three vectors end to end -/

section Vec3
variable {b₁ b₂ b₃ b : ℕ} (x₁ : (⟨1, ![b₁]⟩ : Shape).Idx → α) (x₂ : (⟨1, ![b₂]⟩ : Shape).Idx → α)
  (x₃ : (⟨1, ![b₃]⟩ : Shape).Idx → α)
  (h : Shape.Concatenates [(⟨1, ![b₁]⟩ : Shape), ⟨1, ![b₂]⟩, ⟨1, ![b₃]⟩] ⟨1, ![b]⟩ 0)

theorem concat3_vec_fst (k : Fin b) (q : Fin b₁) (hq : q.val = k.val) :
    concatenate ⟨1, ![b]⟩ 0 [⟨⟨1, ![b₁]⟩, x₁⟩, ⟨⟨1, ![b₂]⟩, x₂⟩, ⟨⟨1, ![b₃]⟩, x₃⟩] h (ix1 k) = x₁ (ix1 q) :=
  concatenate_apply_piece 0 [⟨⟨1, ![b₁]⟩, x₁⟩, ⟨⟨1, ![b₂]⟩, x₂⟩, ⟨⟨1, ![b₃]⟩, x₃⟩] h (ix1 k) 0 (by show 0 < 3; omega)
    ⟨1, ![b₁]⟩ x₁ rfl rfl 0 rfl (ix1 q)
    (fun c hc => by
      match c with
      | ⟨0, _⟩ => exact absurd rfl hc)
    (by show 0 + q.val = k.val; omega)

theorem concat3_vec_snd (k : Fin b) (q : Fin b₂) (hq : b₁ + q.val = k.val) :
    concatenate ⟨1, ![b]⟩ 0 [⟨⟨1, ![b₁]⟩, x₁⟩, ⟨⟨1, ![b₂]⟩, x₂⟩, ⟨⟨1, ![b₃]⟩, x₃⟩] h (ix1 k) = x₂ (ix1 q) :=
  concatenate_apply_piece 0 [⟨⟨1, ![b₁]⟩, x₁⟩, ⟨⟨1, ![b₂]⟩, x₂⟩, ⟨⟨1, ![b₃]⟩, x₃⟩] h (ix1 k) 1 (by show 1 < 3; omega)
    ⟨1, ![b₂]⟩ x₂ rfl rfl b₁ (by simp) (ix1 q)
    (fun c hc => by
      match c with
      | ⟨0, _⟩ => exact absurd rfl hc)
    (by show b₁ + q.val = k.val; omega)

theorem concat3_vec_trd (k : Fin b) (q : Fin b₃) (hq : b₁ + b₂ + q.val = k.val) :
    concatenate ⟨1, ![b]⟩ 0 [⟨⟨1, ![b₁]⟩, x₁⟩, ⟨⟨1, ![b₂]⟩, x₂⟩, ⟨⟨1, ![b₃]⟩, x₃⟩] h (ix1 k) = x₃ (ix1 q) :=
  concatenate_apply_piece 0 [⟨⟨1, ![b₁]⟩, x₁⟩, ⟨⟨1, ![b₂]⟩, x₂⟩, ⟨⟨1, ![b₃]⟩, x₃⟩] h (ix1 k) 2 (by show 2 < 3; omega)
    ⟨1, ![b₃]⟩ x₃ rfl rfl (b₁ + b₂) (by simp) (ix1 q)
    (fun c hc => by
      match c with
      | ⟨0, _⟩ => exact absurd rfl hc)
    (by show b₁ + b₂ + q.val = k.val; omega)

end Vec3

/-! ## Two vectors end to end -/

section Vec2
variable {b₁ b₂ b : ℕ} (x₁ : (⟨1, ![b₁]⟩ : Shape).Idx → α) (x₂ : (⟨1, ![b₂]⟩ : Shape).Idx → α)
  (h : Shape.Concatenates [(⟨1, ![b₁]⟩ : Shape), ⟨1, ![b₂]⟩] ⟨1, ![b]⟩ 0)

theorem concat2_vec_fst (k : Fin b) (q : Fin b₁) (hq : q.val = k.val) :
    concatenate ⟨1, ![b]⟩ 0 [⟨⟨1, ![b₁]⟩, x₁⟩, ⟨⟨1, ![b₂]⟩, x₂⟩] h (ix1 k) = x₁ (ix1 q) :=
  concatenate_apply_piece 0 [⟨⟨1, ![b₁]⟩, x₁⟩, ⟨⟨1, ![b₂]⟩, x₂⟩] h (ix1 k) 0 (by show 0 < 2; omega)
    ⟨1, ![b₁]⟩ x₁ rfl rfl 0 rfl (ix1 q)
    (fun c hc => by
      match c with
      | ⟨0, _⟩ => exact absurd rfl hc)
    (by show 0 + q.val = k.val; omega)

theorem concat2_vec_snd (k : Fin b) (q : Fin b₂) (hq : b₁ + q.val = k.val) :
    concatenate ⟨1, ![b]⟩ 0 [⟨⟨1, ![b₁]⟩, x₁⟩, ⟨⟨1, ![b₂]⟩, x₂⟩] h (ix1 k) = x₂ (ix1 q) :=
  concatenate_apply_piece 0 [⟨⟨1, ![b₁]⟩, x₁⟩, ⟨⟨1, ![b₂]⟩, x₂⟩] h (ix1 k) 1 (by show 1 < 2; omega)
    ⟨1, ![b₂]⟩ x₂ rfl rfl b₁ (by simp) (ix1 q)
    (fun c hc => by
      match c with
      | ⟨0, _⟩ => exact absurd rfl hc)
    (by show b₁ + q.val = k.val; omega)

end Vec2

end KerHostLayout

end
-- ==== Proof.BodyValue.lean ====
/-
  The value the body stores, read at an index, on the extended reals.

  With `x` the `[2048, 128]` block of packed tokens and `a t`, `b t` the slabs of the two weight tensors, row `r`
  of the stored block holds, in column `q < 8`, the seven products (row `r` of transform `t` of `x`) · (column `q`
  of slab `a t`) accumulated from zero, and in column `8 + q` the exponential of the seven products of the
  log-magnitudes against the slabs `b t` — where for the exponential transform the body uses `x` itself in place of
  the log-magnitude of `e^x`. A matrix product into a zero accumulator is the plain sum over the 128 lanes, and a
  change of float format is the identity.
-/
import proofs.«171581_j43276090474799_2_alg».proof.Proof.RegionKI
import proofs.«171581_j43276090474799_2_alg».proof.Proof.Laws
import proofs.«171581_j43276090474799_2_alg».proof.Proof.LibPlainDot
import proofs.«171581_j43276090474799_2_alg».proof.Proof.LibConcatParts
import Idealize.ShloMosaic.Lib.ValueLayout
import Idealize.ShloMosaic.Lib.Pipeline.Value

set_option maxRecDepth 16384

noncomputable section

namespace Cert.KernelIdeal.Gen.Fr

open Idealize.ShloMosaic Idealize.ShloMosaic.ValueIdx
open Cert.Spec
open scoped BigOperators

/-- The matrix unit's product of a `[2048, 128]` matrix with a `[128, 8]` slab into the zero accumulator. -/
theorem mm_apply {φ₁ φ₂ : FTy} (prec : Option ContractPrecision) (A : FVec Ideal S2048x128 φ₁) (B : FVec Ideal S128x8 φ₂)
    (r : Fin 2048) (q : Fin 8) :
    matmul dot_S2048x128_S128x8_S2048x8_1_0_0_1_n_n prec A B (constant S2048x8 .f32 0x00000000#32) (ix2 r q)
      = ∑ k : Fin 128, A (ix2 r k) * B (ix2 k q) :=
  PlainDot.matmul_zero_apply dot_S2048x128_S128x8_S2048x8_1_0_0_1_n_n ⟨rfl, rfl, rfl, rfl, rfl, rfl⟩ rfl rfl prec A B (ix2 r q)

/-- A slab read as a `[128, 8]` matrix. -/
theorem slab_cast (a : Vec Ideal S1x128x8 .f32) (k : Fin 128) (q : Fin 8) :
    shapeCast S128x8 a shapeCasts_S1x128x8_S128x8 (ix2 k q) = a (ix3 (0 : Fin 1) k q) :=
  shapeCast_1ab_ab_apply a shapeCasts_S1x128x8_S128x8 k q

theorem zero_lit : (Scalar.ofBits (F := Ideal) .f32 0x00000000#32 : EReal) = 0 := Ideal.ofBits_zero_f32

/-- The product of a matrix with a slab (read as a `[128, 8]` matrix) into the zero accumulator. -/
theorem mm_slab {φ₁ : FTy} (prec : Option ContractPrecision) (A : FVec Ideal S2048x128 φ₁) (a : Vec Ideal S1x128x8 .f32)
    (r : Fin 2048) (q : Fin 8) :
    matmul dot_S2048x128_S128x8_S2048x8_1_0_0_1_n_n prec A (shapeCast S128x8 a shapeCasts_S1x128x8_S128x8 : FVec Ideal S128x8 .f32)
        (constant S2048x8 .f32 0x00000000#32) (ix2 r q)
      = ∑ k : Fin 128, A (ix2 r k) * a (ix3 (0 : Fin 1) k q) := by
  rw [mm_apply]; exact Finset.sum_congr rfl fun k _ => by rw [slab_cast]

/-- The same with both operands first narrowed to a shorter float format, which changes nothing here. -/
theorem mm_slab16 (A : FVec Ideal S2048x128 .f32) (a : Vec Ideal S1x128x8 .f32) (r : Fin 2048) (q : Fin 8) :
    matmul dot_S2048x128_S128x8_S2048x8_1_0_0_1_n_n none (truncf .bf16 A bitsLt_bf16_f32)
        (truncf .bf16 (shapeCast S128x8 a shapeCasts_S1x128x8_S128x8 : FVec Ideal S128x8 .f32) bitsLt_bf16_f32)
        (constant S2048x8 .f32 0x00000000#32) (ix2 r q)
      = ∑ k : Fin 128, A (ix2 r k) * a (ix3 (0 : Fin 1) k q) := by
  rw [mm_apply]; exact Finset.sum_congr rfl fun k _ => by rw [ValueIdx.truncf_apply, ValueIdx.truncf_apply, slab_cast]

variable (x : Vec Ideal S2048x128 .f32)

theorem pay2_eq : k0_pay2 (F := Ideal) x = x := by
  unfold k0_pay2; exact shapeCast_self _ _

theorem pay3_apply (i : S2048x128.Idx) : k0_pay3 (F := Ideal) x i = lm (x i) := by
  unfold k0_pay3; rw [pay2_eq]; rfl

theorem pay4_apply (i : S2048x128.Idx) : k0_pay4 (F := Ideal) x i = Ideal.sin (x i) := by
  unfold k0_pay4; rw [pay2_eq]; rfl

theorem pay7_apply (i : S2048x128.Idx) : k0_pay7 (F := Ideal) x i = Ideal.cos (x i) := by
  unfold k0_pay7; rw [pay2_eq]; rfl

theorem pay9_apply (v : FVec Ideal S2048x128 .f32) (i : S2048x128.Idx) : k0_pay9 (F := Ideal) v i = Ideal.tanh (v i) := rfl

/-! ## The pointwise operations at an index -/

theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl
theorem absf_at {s : Shape} {φ : FTy} (v : FVec Ideal s φ) (i : s.Idx) : absf v i = max (v i) (-(v i)) := rfl
theorem logistic_at {s : Shape} {φ : FTy} (v : FVec Ideal s φ) (i : s.Idx) : logistic v i = Ideal.logistic (v i) := rfl
theorem lm_def (v : EReal) : Ideal.log (max v (-v)) = lm v := rfl

theorem pay5_apply (a0 a1 : Vec Ideal S1x128x8 .f32) (r : Fin 2048) (q : Fin 8) :
    k0_pay5 (F := Ideal) x a0 a1 (ix2 r q)
      = (0 + ∑ k : Fin 128, x (ix2 r k) * a0 (ix3 (0 : Fin 1) k q)) + ∑ k : Fin 128, Ideal.sin (x (ix2 r k)) * a1 (ix3 (0 : Fin 1) k q) := by
  unfold k0_pay5
  simp only [ValueIdx.addf_apply, mm_slab16, ValueIdx.broadcast_apply, pay2_eq, pay4_apply, zero_lit]

theorem pay6_apply (b0 b1 : Vec Ideal S1x128x8 .f32) (r : Fin 2048) (q : Fin 8) :
    k0_pay6 (F := Ideal) x b0 b1 (ix2 r q)
      = (0 + ∑ k : Fin 128, lm (x (ix2 r k)) * b0 (ix3 (0 : Fin 1) k q)) + ∑ k : Fin 128, lm (Ideal.sin (x (ix2 r k))) * b1 (ix3 (0 : Fin 1) k q) := by
  unfold k0_pay6
  simp only [ValueIdx.addf_apply, mm_slab, ValueIdx.broadcast_apply, pay3_apply, pay4_apply, log_at, absf_at, lm_def, zero_lit]

theorem pay8_apply (a2 : Vec Ideal S1x128x8 .f32) (r : Fin 2048) (q : Fin 8) :
    k0_pay8 (F := Ideal) x a2 (ix2 r q) = ∑ k : Fin 128, Ideal.cos (x (ix2 r k)) * a2 (ix3 (0 : Fin 1) k q) := by
  unfold k0_pay8
  simp only [mm_slab16, pay7_apply]

/-! ## The later payloads, over the earlier ones as variables -/

theorem pay10_apply (v1 : FVec Ideal S2048x128 .f32) (v22 v34 : FVec Ideal S2048x8 .f32) (a3 a4 : Vec Ideal S1x128x8 .f32)
    (r : Fin 2048) (q : Fin 8) :
    k0_pay10 (F := Ideal) v1 v22 v34 a3 a4 (ix2 r q)
      = ((v22 (ix2 r q) + v34 (ix2 r q)) + ∑ k : Fin 128, Ideal.tanh (v1 (ix2 r k)) * a3 (ix3 (0 : Fin 1) k q))
        + ∑ k : Fin 128, Ideal.exp (v1 (ix2 r k)) * a4 (ix3 (0 : Fin 1) k q) := by
  unfold k0_pay10
  simp only [ValueIdx.addf_apply, mm_slab, mm_slab16, pay9_apply, exp_at]

theorem pay11_apply (v1 : FVec Ideal S2048x128 .f32) (v28 : FVec Ideal S2048x8 .f32) (v29 : FVec Ideal S2048x128 .f32)
    (b2 b3 b4 : Vec Ideal S1x128x8 .f32) (r : Fin 2048) (q : Fin 8) :
    k0_pay11 (F := Ideal) v1 v28 v29 b2 b3 b4 (ix2 r q)
      = ((v28 (ix2 r q) + ∑ k : Fin 128, lm (v29 (ix2 r k)) * b2 (ix3 (0 : Fin 1) k q))
          + ∑ k : Fin 128, lm (Ideal.tanh (v1 (ix2 r k))) * b3 (ix3 (0 : Fin 1) k q))
        + ∑ k : Fin 128, v1 (ix2 r k) * b4 (ix3 (0 : Fin 1) k q) := by
  unfold k0_pay11
  simp only [ValueIdx.addf_apply, mm_slab, mm_slab16, pay9_apply, log_at, absf_at, lm_def]

theorem pay12_apply (v5 : FVec Ideal S2048x128 .f32) (a5 : Vec Ideal S1x128x8 .f32) (r : Fin 2048) (q : Fin 8) :
    k0_pay12 (F := Ideal) v5 a5 (ix2 r q) = ∑ k : Fin 128, v5 (ix2 r k) * a5 (ix3 (0 : Fin 1) k q) := by
  unfold k0_pay12
  simp only [mm_slab16]

/-! ## The stored block's two halves -/

/-- Column `q < 8` of row `r`: the seven products against the sum slabs, accumulated from zero. -/
theorem stored_sum (a0 a1 a2 a3 a4 a5 a6 b0 b1 b2 b3 b4 b5 b6 : Vec Ideal S1x128x8 .f32)
    (r : Fin 2048) (q : Fin 8) (j : Fin 16) (hj : j.val = q.val) :
    stored (F := Ideal) x a0 a1 a2 a3 a4 a5 a6 b0 b1 b2 b3 b4 b5 b6 (ix2 r j)
      = ((((((0 + ∑ k : Fin 128, x (ix2 r k) * a0 (ix3 (0 : Fin 1) k q))
          + ∑ k : Fin 128, Ideal.sin (x (ix2 r k)) * a1 (ix3 (0 : Fin 1) k q))
          + ∑ k : Fin 128, Ideal.cos (x (ix2 r k)) * a2 (ix3 (0 : Fin 1) k q))
          + ∑ k : Fin 128, Ideal.tanh (x (ix2 r k)) * a3 (ix3 (0 : Fin 1) k q))
          + ∑ k : Fin 128, Ideal.exp (x (ix2 r k)) * a4 (ix3 (0 : Fin 1) k q))
          + ∑ k : Fin 128, lm (x (ix2 r k)) * a5 (ix3 (0 : Fin 1) k q))
          + ∑ k : Fin 128, Ideal.logistic (x (ix2 r k)) * a6 (ix3 (0 : Fin 1) k q) := by
  unfold stored k0_pay1
  refine (KerHostLayout.concat2_cols_fst _ _ concatenates_S2048x8_S2048x8_S2048x16_d1 r j q hj.symm).trans ?_
  simp only [ValueIdx.addf_apply, mm_slab, mm_slab16, logistic_at, pay10_apply, pay12_apply,
    pay5_apply, pay8_apply, pay3_apply, pay2_eq]

/-- Column `8 + q` of row `r`: the exponential of the seven products of the log-magnitudes against the product
    slabs, accumulated from zero; for the exponential transform the body multiplies `x` itself. -/
theorem stored_prod (a0 a1 a2 a3 a4 a5 a6 b0 b1 b2 b3 b4 b5 b6 : Vec Ideal S1x128x8 .f32)
    (r : Fin 2048) (q : Fin 8) (j : Fin 16) (hj : 8 + q.val = j.val) :
    stored (F := Ideal) x a0 a1 a2 a3 a4 a5 a6 b0 b1 b2 b3 b4 b5 b6 (ix2 r j)
      = Ideal.exp (((((((0 + ∑ k : Fin 128, lm (x (ix2 r k)) * b0 (ix3 (0 : Fin 1) k q))
          + ∑ k : Fin 128, lm (Ideal.sin (x (ix2 r k))) * b1 (ix3 (0 : Fin 1) k q))
          + ∑ k : Fin 128, lm (Ideal.cos (x (ix2 r k))) * b2 (ix3 (0 : Fin 1) k q))
          + ∑ k : Fin 128, lm (Ideal.tanh (x (ix2 r k))) * b3 (ix3 (0 : Fin 1) k q))
          + ∑ k : Fin 128, x (ix2 r k) * b4 (ix3 (0 : Fin 1) k q))
          + ∑ k : Fin 128, lm (lm (x (ix2 r k))) * b5 (ix3 (0 : Fin 1) k q))
          + ∑ k : Fin 128, lm (Ideal.logistic (x (ix2 r k))) * b6 (ix3 (0 : Fin 1) k q)) := by
  unfold stored k0_pay1
  refine (KerHostLayout.concat2_cols_snd _ _ concatenates_S2048x8_S2048x8_S2048x16_d1 r j q hj).trans ?_
  simp only [ValueIdx.addf_apply, mm_slab, mm_slab16, logistic_at, exp_at, log_at, absf_at, lm_def, pay11_apply,
    pay6_apply, pay7_apply, pay3_apply, pay2_eq]

end Cert.KernelIdeal.Gen.Fr

end
-- ==== Proof.Bridge.lean ====
/-
  From the kernel's sums over 128 lanes to the specification's sums over a token's sixteen features.

  Row `R` of the packed matrix holds tokens `8 R … 8 R + 7`; lane `k` is feature `k % 16` of token `8 R + k / 16`. A
  slab of a block-diagonal weight tensor has, at lane `k` and column `q`, row `16 t + k % 16` of the weight column
  times the indicator of `k / 16 = q`. So the product of row `R` of a transform of the packed matrix with column
  `q` of slab `t` is the sum over the sixteen features of token `8 R + q`; the seven of them accumulated from zero
  are the specification's weighted sum, and with log-magnitudes its weighted sum of log-magnitudes.
-/
import proofs.«171581_j43276090474799_2_alg».proof.Proof.Laws

noncomputable section

namespace Cert.Laws

open Idealize.ShloMosaic Idealize.ShloMosaic.ValueIdx Cert.Spec
open scoped BigOperators

/-- The token a lane of row `R` belongs to, the feature it holds, the weight row it meets in slab `t`, and token
    `q` of row `R`. -/
abbrev tokOf (R : Fin 131072) (k : Fin 128) : Fin 1048576 := ⟨8 * R.val + k.val / 16, by omega⟩
abbrev featOf (k : Fin 128) : Fin 16 := ⟨k.val % 16, by omega⟩
abbrev rowOf (t : Fin 7) (k : Fin 128) : Fin 112 := ⟨t.val * 16 + k.val % 16, by omega⟩
abbrev tokAt (R : Fin 131072) (q : Fin 8) : Fin 1048576 := ⟨8 * R.val + q.val, by omega⟩

theorem tokOf_lane (R : Fin 131072) (q : Fin 8) (d : Fin 16) : tokOf R (lane q d) = tokAt R q :=
  Fin.ext (by show 8 * R.val + (q.val * 16 + d.val) / 16 = 8 * R.val + q.val; omega)
theorem featOf_lane (q : Fin 8) (d : Fin 16) : featOf (lane q d) = d :=
  Fin.ext (by show (q.val * 16 + d.val) % 16 = d.val; omega)
theorem rowOf_lane (t : Fin 7) (q : Fin 8) (d : Fin 16) : rowOf t (lane q d) = wrow t d :=
  Fin.ext (by show t.val * 16 + (q.val * 16 + d.val) % 16 = t.val * 16 + d.val; omega)

variable (xx : (⟨2, ![1048576, 16]⟩ : Shape).Idx → EReal) (W : (⟨2, ![112, 1]⟩ : Shape).Idx → EReal)

/-- One product: row `R` of `f` of the packed matrix against column `q` of slab `t`. -/
theorem lane_term (f : EReal → EReal) (X A : Fin 128 → EReal) (t : Fin 7) (R : Fin 131072) (q : Fin 8)
    (hX : ∀ k : Fin 128, X k = xx (ix2 (tokOf R k) (featOf k)))
    (hA : ∀ k : Fin 128, A k = W (ix2 (rowOf t k) (0 : Fin 1)) * (if k.val / 16 = q.val then 1 else 0)) :
    ∑ k : Fin 128, f (X k) * A k = ∑ d : Fin 16, f (xx (ix2 (tokAt R q) d)) * W (ix2 (wrow t d) (0 : Fin 1)) := by
  have h1 : ∀ k : Fin 128, f (X k) * A k
      = (fun k : Fin 128 => f (xx (ix2 (tokOf R k) (featOf k)))) k
        * ((fun k : Fin 128 => W (ix2 (rowOf t k) (0 : Fin 1))) k * (fun k : Fin 128 => if k.val / 16 = q.val then (1 : EReal) else 0) k) :=
    fun k => by rw [hX, hA]
  rw [Finset.sum_congr rfl (fun k _ => h1 k), sum_masked _ _ _ q (fun l => rfl)]
  refine Finset.sum_congr rfl fun d _ => ?_
  show f (xx (ix2 (tokOf R (lane q d)) (featOf (lane q d)))) * W (ix2 (rowOf t (lane q d)) (0 : Fin 1)) = _
  rw [tokOf_lane, featOf_lane, rowOf_lane]

/-- The seven products against the sum slabs, accumulated from zero, are the specification's weighted sum. -/
theorem sum_side (X : Fin 128 → EReal) (A : Fin 7 → Fin 128 → EReal) (R : Fin 131072) (q : Fin 8)
    (hX : ∀ k : Fin 128, X k = xx (ix2 (tokOf R k) (featOf k)))
    (hA : ∀ (t : Fin 7) (k : Fin 128), A t k = W (ix2 (rowOf t k) (0 : Fin 1)) * (if k.val / 16 = q.val then 1 else 0)) :
    ((((((0 + ∑ k : Fin 128, X k * A 0 k)
        + ∑ k : Fin 128, Ideal.sin (X k) * A 1 k)
        + ∑ k : Fin 128, Ideal.cos (X k) * A 2 k)
        + ∑ k : Fin 128, Ideal.tanh (X k) * A 3 k)
        + ∑ k : Fin 128, Ideal.exp (X k) * A 4 k)
        + ∑ k : Fin 128, lm (X k) * A 5 k)
        + ∑ k : Fin 128, Ideal.logistic (X k) * A 6 k
      = wsum xx W (tokAt R q) := by
  have h0 : ∑ k : Fin 128, X k * A 0 k = ∑ d : Fin 16, tf 0 (xx (ix2 (tokAt R q) d)) * W (ix2 (wrow 0 d) (0 : Fin 1)) :=
    lane_term xx W (fun v => v) X (A 0) 0 R q hX (hA 0)
  have h1 : ∑ k : Fin 128, Ideal.sin (X k) * A 1 k = ∑ d : Fin 16, tf 1 (xx (ix2 (tokAt R q) d)) * W (ix2 (wrow 1 d) (0 : Fin 1)) :=
    lane_term xx W Ideal.sin X (A 1) 1 R q hX (hA 1)
  have h2 : ∑ k : Fin 128, Ideal.cos (X k) * A 2 k = ∑ d : Fin 16, tf 2 (xx (ix2 (tokAt R q) d)) * W (ix2 (wrow 2 d) (0 : Fin 1)) :=
    lane_term xx W Ideal.cos X (A 2) 2 R q hX (hA 2)
  have h3 : ∑ k : Fin 128, Ideal.tanh (X k) * A 3 k = ∑ d : Fin 16, tf 3 (xx (ix2 (tokAt R q) d)) * W (ix2 (wrow 3 d) (0 : Fin 1)) :=
    lane_term xx W Ideal.tanh X (A 3) 3 R q hX (hA 3)
  have h4 : ∑ k : Fin 128, Ideal.exp (X k) * A 4 k = ∑ d : Fin 16, tf 4 (xx (ix2 (tokAt R q) d)) * W (ix2 (wrow 4 d) (0 : Fin 1)) :=
    lane_term xx W Ideal.exp X (A 4) 4 R q hX (hA 4)
  have h5 : ∑ k : Fin 128, lm (X k) * A 5 k = ∑ d : Fin 16, tf 5 (xx (ix2 (tokAt R q) d)) * W (ix2 (wrow 5 d) (0 : Fin 1)) :=
    lane_term xx W lm X (A 5) 5 R q hX (hA 5)
  have h6 : ∑ k : Fin 128, Ideal.logistic (X k) * A 6 k = ∑ d : Fin 16, tf 6 (xx (ix2 (tokAt R q) d)) * W (ix2 (wrow 6 d) (0 : Fin 1)) :=
    lane_term xx W Ideal.logistic X (A 6) 6 R q hX (hA 6)
  rw [h0, h1, h2, h3, h4, h5, h6]
  unfold wsum
  rw [Fin.sum_univ_seven, zero_add]

/-- The seven products of log-magnitudes against the product slabs, accumulated from zero — the fifth taken of
    the value itself, which is the log-magnitude of its exponential — are the specification's weighted sum of
    log-magnitudes. -/
theorem prod_side (X : Fin 128 → EReal) (B : Fin 7 → Fin 128 → EReal) (R : Fin 131072) (q : Fin 8)
    (hX : ∀ k : Fin 128, X k = xx (ix2 (tokOf R k) (featOf k)))
    (hB : ∀ (t : Fin 7) (k : Fin 128), B t k = W (ix2 (rowOf t k) (0 : Fin 1)) * (if k.val / 16 = q.val then 1 else 0)) :
    ((((((0 + ∑ k : Fin 128, lm (X k) * B 0 k)
        + ∑ k : Fin 128, lm (Ideal.sin (X k)) * B 1 k)
        + ∑ k : Fin 128, lm (Ideal.cos (X k)) * B 2 k)
        + ∑ k : Fin 128, lm (Ideal.tanh (X k)) * B 3 k)
        + ∑ k : Fin 128, X k * B 4 k)
        + ∑ k : Fin 128, lm (lm (X k)) * B 5 k)
        + ∑ k : Fin 128, lm (Ideal.logistic (X k)) * B 6 k
      = wlog xx W (tokAt R q) := by
  have h0 : ∑ k : Fin 128, lm (X k) * B 0 k = ∑ d : Fin 16, lm (tf 0 (xx (ix2 (tokAt R q) d))) * W (ix2 (wrow 0 d) (0 : Fin 1)) :=
    lane_term xx W lm X (B 0) 0 R q hX (hB 0)
  have h1 : ∑ k : Fin 128, lm (Ideal.sin (X k)) * B 1 k = ∑ d : Fin 16, lm (tf 1 (xx (ix2 (tokAt R q) d))) * W (ix2 (wrow 1 d) (0 : Fin 1)) :=
    lane_term xx W (fun v => lm (Ideal.sin v)) X (B 1) 1 R q hX (hB 1)
  have h2 : ∑ k : Fin 128, lm (Ideal.cos (X k)) * B 2 k = ∑ d : Fin 16, lm (tf 2 (xx (ix2 (tokAt R q) d))) * W (ix2 (wrow 2 d) (0 : Fin 1)) :=
    lane_term xx W (fun v => lm (Ideal.cos v)) X (B 2) 2 R q hX (hB 2)
  have h3 : ∑ k : Fin 128, lm (Ideal.tanh (X k)) * B 3 k = ∑ d : Fin 16, lm (tf 3 (xx (ix2 (tokAt R q) d))) * W (ix2 (wrow 3 d) (0 : Fin 1)) :=
    lane_term xx W (fun v => lm (Ideal.tanh v)) X (B 3) 3 R q hX (hB 3)
  have h4 : ∑ k : Fin 128, X k * B 4 k = ∑ d : Fin 16, lm (tf 4 (xx (ix2 (tokAt R q) d))) * W (ix2 (wrow 4 d) (0 : Fin 1)) :=
    (lane_term xx W (fun v => v) X (B 4) 4 R q hX (hB 4)).trans
      (Finset.sum_congr rfl fun d _ => by
        show xx (ix2 (tokAt R q) d) * _ = lm (Ideal.exp (xx (ix2 (tokAt R q) d))) * _
        rw [lm_exp])
  have h5 : ∑ k : Fin 128, lm (lm (X k)) * B 5 k = ∑ d : Fin 16, lm (tf 5 (xx (ix2 (tokAt R q) d))) * W (ix2 (wrow 5 d) (0 : Fin 1)) :=
    lane_term xx W (fun v => lm (lm v)) X (B 5) 5 R q hX (hB 5)
  have h6 : ∑ k : Fin 128, lm (Ideal.logistic (X k)) * B 6 k = ∑ d : Fin 16, lm (tf 6 (xx (ix2 (tokAt R q) d))) * W (ix2 (wrow 6 d) (0 : Fin 1)) :=
    lane_term xx W (fun v => lm (Ideal.logistic v)) X (B 6) 6 R q hX (hB 6)
  rw [h0, h1, h2, h3, h4, h5, h6]
  unfold wlog
  rw [Fin.sum_univ_seven, zero_add]

/-! ## The region's output array as a function of the arguments -/

/-- Row `R`, column `j` of the region's output: the result of token `8 R + j % 8`, component `j / 8` (the eight
    sums, then the eight products). -/
def outAt (ws wp : (⟨2, ![112, 1]⟩ : Shape).Idx → EReal) (R : Fin 131072) (j : Fin 16) : EReal :=
  G xx ws wp (ix2 (⟨8 * R.val + j.val % 8, by omega⟩ : Fin 1048576) (⟨j.val / 8, by omega⟩ : Fin 2))

theorem outAt_sum (ws wp : (⟨2, ![112, 1]⟩ : Shape).Idx → EReal) (R : Fin 131072) (q : Fin 8) (j : Fin 16) (hj : j.val = q.val) :
    wsum xx ws (tokAt R q) = outAt xx ws wp R j := by
  unfold outAt
  have e1 : (⟨8 * R.val + j.val % 8, by omega⟩ : Fin 1048576) = tokAt R q := Fin.ext (by show 8 * R.val + j.val % 8 = 8 * R.val + q.val; omega)
  have e2 : (⟨j.val / 8, by omega⟩ : Fin 2) = (0 : Fin 2) := Fin.ext (by show j.val / 8 = 0; omega)
  rw [e1, e2, G_sum]

theorem outAt_prod (ws wp : (⟨2, ![112, 1]⟩ : Shape).Idx → EReal) (R : Fin 131072) (q : Fin 8) (j : Fin 16) (hj : 8 + q.val = j.val) :
    Ideal.exp (wlog xx wp (tokAt R q)) = outAt xx ws wp R j := by
  unfold outAt
  have e1 : (⟨8 * R.val + j.val % 8, by omega⟩ : Fin 1048576) = tokAt R q := Fin.ext (by show 8 * R.val + j.val % 8 = 8 * R.val + q.val; omega)
  have e2 : (⟨j.val / 8, by omega⟩ : Fin 2) = (1 : Fin 2) := Fin.ext (by show j.val / 8 = 1; omega)
  rw [e1, e2, G_prod]

/-- Token `b`'s component `s` sits in row `b / 8`, column `8 s + b % 8`. -/
theorem outAt_token (ws wp : (⟨2, ![112, 1]⟩ : Shape).Idx → EReal) (b : Fin 1048576) (s : Fin 2) :
    outAt xx ws wp (⟨b.val / 8, by omega⟩ : Fin 131072) (⟨8 * s.val + b.val % 8, by omega⟩ : Fin 16) = G xx ws wp (ix2 b s) := by
  unfold outAt
  have e1 : (⟨8 * (b.val / 8) + (8 * s.val + b.val % 8) % 8, by omega⟩ : Fin 1048576) = b := Fin.ext (by show 8 * (b.val / 8) + (8 * s.val + b.val % 8) % 8 = b.val; omega)
  have e2 : (⟨(8 * s.val + b.val % 8) / 8, by omega⟩ : Fin 2) = s := Fin.ext (by show (8 * s.val + b.val % 8) / 8 = s.val; omega)
  rw [e1, e2]

end Cert.Laws

end
-- ==== Proof.TailKI.lean ====
/-
  The host operations after the region of `KernelIdeal`: the region's output array `[131072, 16]` (row `R` holds
  eight tokens' sums in columns `0 … 7` and their products in columns `8 … 15`) is recast to `[131072, 2, 8]`,
  its last two axes exchanged, and recast to `[1048576, 2]`: token `b = 8 R + j` reads row `R`, its sum at
  column `j` and its product at column `8 + j`.
-/
import proofs.«171581_j43276090474799_2_alg».proof.Proof.FrameKI
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The operations after the region as one function -/

/-- What the three host operations after the region leave in the result array, from the region's output array. -/
def tailOf (Y : (⟨S131072x16, .f32⟩ : BufTy).Contents (Elt F)) : (⟨S1048576x2, .f32⟩ : BufTy).Contents (Elt F) :=
  shapeCast S1048576x2
    (transpose S131072x8x2 [0, 2, 1] (shapeCast S131072x2x8 Y shapeCasts_S131072x16_S131072x2x8)
      transposes_S131072x2x8_S131072x8x2_0_2_1)
    shapeCasts_S131072x8x2_S1048576x2

variable (m : (ℓ : Loc nD τ sig) → Buf (Elt F) ℓ) (ρ : Dev nD → PrngReg)

/-! ## The result array after the run -/

/-- The result array after the run's last operations is `tailOf` of the region's output array as the region leaves
    it: the three operations read only each other's results and that array, which is window 3's. -/
theorem tail_main_v132 (c : Dev nD) :
    Pipeline.afterTail₀ cfgs (dats m) 0 (V0 m) [hostOps1] c main_v132 = tailOf ((dats m 0 c).arrAt 3 cfg0.N) := by
  unfold Pipeline.afterTail₀
  show StableHlo.after hostOps1 _ (Proc.devRef .tc main_v132) = _
  after_results
  exact congrArg tailOf
    (Pipeline.withArrays_arr spec0 launch0.win.arr_inj c (V0 m c) (fun w => (dats m 0 c).arrAt w cfg0.N) 3)

/-- Every run of @main terminates with the result array at `tailOf` of the region's output array as the region
    leaves it, and the three argument arrays as launched. -/
theorem result_run : θ_run defs (onTc (τ := τ) (main (F := F))) ⟨m, fun _ => 0, ρ⟩ (fun r => ∀ c : Dev nD,
      r.2.mem ((c.tc : Thread nD τ).loc main_v132) = tailOf ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v132 (Pipeline.mem_restRefs_of main_v132 (by decide) (by decide))).trans (tail_main_v132 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-! ## The result array read at a token -/

/-- Token `b = 8 R + j` of the result reads row `R` of the region's output array: component `s` at column
    `8 s + j`. The last recast sends `(b, s)` to `(R, j, s)` (position `2 b + s = 16 R + 2 j + s`), the exchange of
    axes to `(R, s, j)`, and the first recast to `(R, 8 s + j)` (position `16 R + 8 s + j`). -/
theorem tailOf_apply (Y : (⟨S131072x16, .f32⟩ : BufTy).Contents (Elt F)) (b : Fin 1048576) (s : Fin 2) :
    tailOf Y (ix2 b s)
      = Y (ix2 (⟨b.val / 8, by omega⟩ : Fin 131072) (⟨8 * s.val + b.val % 8, by omega⟩ : Fin 16)) := by
  unfold tailOf
  refine (shapeCast_apply _ shapeCasts_S131072x8x2_S1048576x2 (ix2 b s)
    (ix3 (⟨b.val / 8, by omega⟩ : Fin 131072) (⟨b.val % 8, by omega⟩ : Fin 8) s) ?_).trans ?_
  · rw [Shape.rowMajor_val_three, Shape.rowMajor_val_two]
    show (b.val / 8 * 8 + b.val % 8) * 2 + s.val = b.val * 2 + s.val
    omega
  refine (transpose_ix3_021_apply _ transposes_S131072x2x8_S131072x8x2_0_2_1
    (⟨b.val / 8, by omega⟩ : Fin 131072) (⟨b.val % 8, by omega⟩ : Fin 8) s).trans ?_
  refine shapeCast_apply _ shapeCasts_S131072x16_S131072x2x8
    (ix3 (⟨b.val / 8, by omega⟩ : Fin 131072) s (⟨b.val % 8, by omega⟩ : Fin 8))
    (ix2 (⟨b.val / 8, by omega⟩ : Fin 131072) (⟨8 * s.val + b.val % 8, by omega⟩ : Fin 16)) ?_
  rw [Shape.rowMajor_val_three, Shape.rowMajor_val_two]
  show b.val / 8 * 16 + (8 * s.val + b.val % 8) = (b.val / 8 * 2 + s.val) * 8 + b.val % 8
  omega

end Cert.KernelIdeal.Gen.Fr

end
-- ==== Proof.KernelValue.lean ====
/-
  The kernel computes the specification.

  At grid point `t` the body's stored block, read at row `r` and column `j`, is the output-array function at row
  `2048 t + r`: its loads read the packed tokens of that row and the slabs of the two block-diagonal weight
  tensors, the seven lane sums collapse to the sixteen features of one token, and the accumulated seven are the
  specification's sums. The blocks tile the output array, and the host operations after the region move token
  `b`'s two components from row `b / 8`, columns `b % 8` and `8 + b % 8`, to row `b` of the result.
-/
import proofs.«171581_j43276090474799_2_alg».proof.Proof.BlocksKI
import proofs.«171581_j43276090474799_2_alg».proof.Proof.HostPrefix
import proofs.«171581_j43276090474799_2_alg».proof.Proof.WeightRead
import proofs.«171581_j43276090474799_2_alg».proof.Proof.BodyValue
import proofs.«171581_j43276090474799_2_alg».proof.Proof.Bridge
import proofs.«171581_j43276090474799_2_alg».proof.Proof.TailKI

set_option maxRecDepth 16384

noncomputable section

namespace Cert.KernelIdeal.Gen.Fr

open Idealize.ShloMosaic Idealize.ShloMosaic.TcCoe Idealize.ShloMosaic.ValueIdx
open Idealize.SL Idealize.SL.Sem
open Cert.Spec Cert.Laws Cert.KernelIdeal.Weights
open scoped BigOperators

variable (m : (ℓ : Loc nD τ sig) → Buf (Elt Ideal) ℓ)

/-- The three argument arrays as launched, as functions on their index sets. -/
abbrev argX (c : Dev nD) : (⟨2, ![1048576, 16]⟩ : Shape).Idx → EReal := m ((c : Thread nD τ).loc main_arg0)
abbrev argWs (c : Dev nD) : (⟨2, ![112, 1]⟩ : Shape).Idx → EReal := m ((c : Thread nD τ).loc main_arg1)
abbrev argWp (c : Dev nD) : (⟨2, ![112, 1]⟩ : Shape).Idx → EReal := m ((c : Thread nD τ).loc main_arg2)

/-- The region's output array, from the three argument arrays as launched. -/
def outArr (c : Dev nD) : (⟨S131072x16, .f32⟩ : BufTy).Contents (Elt Ideal) := fun i =>
  outAt (argX m c) (argWs m c) (argWp m c) (i 0) (i 1)

/-- The seven slabs of a weight tensor as the body loads them, at lane `k` and column `q`. -/
def slabsAt (Y : S7x128x8.Idx → Elt Ideal EltTy.f32) (q : Fin 8) : Fin 7 → Fin 128 → EReal :=
  ![fun k => (View.ld Y rW0 (ix3 (0 : Fin 1) k q) : EReal), fun k => (View.ld Y rW1 (ix3 (0 : Fin 1) k q) : EReal),
    fun k => (View.ld Y rW2 (ix3 (0 : Fin 1) k q) : EReal), fun k => (View.ld Y rW3 (ix3 (0 : Fin 1) k q) : EReal),
    fun k => (View.ld Y rW4 (ix3 (0 : Fin 1) k q) : EReal), fun k => (View.ld Y rW5 (ix3 (0 : Fin 1) k q) : EReal),
    fun k => (View.ld Y rW6 (ix3 (0 : Fin 1) k q) : EReal)]

theorem slabsAt_eq (Y : S7x128x8.Idx → Elt Ideal EltTy.f32) (q : Fin 8) (t' : Fin 7) (k : Fin 128) :
    slabsAt Y q t' k = Y (ix3 t' k q) := by
  fin_cases t'
  · show View.ld Y rW0 (ix3 (0 : Fin 1) k q) = Y (ix3 (0 : Fin 7) k q); exact ld_slab0 Y k q
  · show View.ld Y rW1 (ix3 (0 : Fin 1) k q) = Y (ix3 (1 : Fin 7) k q); exact ld_slab1 Y k q
  · show View.ld Y rW2 (ix3 (0 : Fin 1) k q) = Y (ix3 (2 : Fin 7) k q); exact ld_slab2 Y k q
  · show View.ld Y rW3 (ix3 (0 : Fin 1) k q) = Y (ix3 (3 : Fin 7) k q); exact ld_slab3 Y k q
  · show View.ld Y rW4 (ix3 (0 : Fin 1) k q) = Y (ix3 (4 : Fin 7) k q); exact ld_slab4 Y k q
  · show View.ld Y rW5 (ix3 (0 : Fin 1) k q) = Y (ix3 (5 : Fin 7) k q); exact ld_slab5 Y k q
  · show View.ld Y rW6 (ix3 (0 : Fin 1) k q) = Y (ix3 (6 : Fin 7) k q); exact ld_slab6 Y k q

/-- Row `2048 t + r` of the packed matrix, as a row index. -/
abbrev rowAt (t : Fin cfg0.N) (r : Fin 2048) : Fin 131072 := ⟨2048 * t.val + r.val, by have := point_lt t; omega⟩

/-- Row `r` of the packed block at point `t`, lane `k`: feature `k % 16` of token `8 (2048 t + r) + k / 16`. -/
theorem packed_row (c : Dev nD) (t : Fin cfg0.N) (r : Fin 2048) (k : Fin 128) :
    (View.ld (iblk m c 0 t) rX (ix2 r k) : EReal) = argX m c (ix2 (tokOf (rowAt t r) k) (featOf k)) := by
  rw [ld_whole, iblk0_apply, V_packed]
  exact packed_apply _ _ k

/-- The sum weights' slabs as loaded at any point. -/
theorem sum_slabs (c : Dev nD) (t : Fin cfg0.N) (q : Fin 8) (t' : Fin 7) (k : Fin 128) :
    slabsAt (iblk m c 1 t) q t' k
      = argWs m c (ix2 (rowOf t' k) (0 : Fin 1)) * (if k.val / 16 = q.val then 1 else 0) := by
  rw [slabsAt_eq, iblk1_apply, V_sumBlocks]
  exact blocks_apply _ t' k q

/-- The product weights' slabs as loaded at any point. -/
theorem prod_slabs (c : Dev nD) (t : Fin cfg0.N) (q : Fin 8) (t' : Fin 7) (k : Fin 128) :
    slabsAt (iblk m c 2 t) q t' k
      = argWp m c (ix2 (rowOf t' k) (0 : Fin 1)) * (if k.val / 16 = q.val then 1 else 0) := by
  rw [slabsAt_eq, iblk2_apply, V_prodBlocks]
  exact blocks_apply _ t' k q

/-- The stored value over generic input blocks `x0`, `x1`, `x2`, at a sum column. -/
theorem stored_block_sum (x0 : Vec Ideal S2048x128 .f32) (x1 x2 : Vec Ideal S7x128x8 .f32)
    (xx : (⟨2, ![1048576, 16]⟩ : Shape).Idx → EReal) (ws wp : (⟨2, ![112, 1]⟩ : Shape).Idx → EReal)
    (R : Fin 131072) (r : Fin 2048) (q : Fin 8) (j : Fin 16) (hj : j.val = q.val)
    (hX : ∀ k : Fin 128, (View.ld x0 rX (ix2 r k) : EReal) = xx (ix2 (tokOf R k) (featOf k)))
    (hA : ∀ (t' : Fin 7) (k : Fin 128), slabsAt x1 q t' k = ws (ix2 (rowOf t' k) (0 : Fin 1)) * (if k.val / 16 = q.val then 1 else 0)) :
    out0_3 x0 x1 x2 (ix2 r j) = outAt xx ws wp R j := by
  unfold out0_3
  rw [View.canon_unit_zero zeros2]
  refine (stored_sum (View.ld x0 rX) (View.ld x1 rW0) (View.ld x1 rW1) (View.ld x1 rW2) (View.ld x1 rW3) (View.ld x1 rW4)
    (View.ld x1 rW5) (View.ld x1 rW6) (View.ld x2 rW0) (View.ld x2 rW1) (View.ld x2 rW2) (View.ld x2 rW3) (View.ld x2 rW4)
    (View.ld x2 rW5) (View.ld x2 rW6) r q j hj).trans ?_
  refine (sum_side xx ws (fun k => (View.ld x0 rX (ix2 r k) : EReal)) (slabsAt x1 q) R q hX hA).trans ?_
  exact outAt_sum xx ws wp R q j hj

/-- The same at a product column. -/
theorem stored_block_prod (x0 : Vec Ideal S2048x128 .f32) (x1 x2 : Vec Ideal S7x128x8 .f32)
    (xx : (⟨2, ![1048576, 16]⟩ : Shape).Idx → EReal) (ws wp : (⟨2, ![112, 1]⟩ : Shape).Idx → EReal)
    (R : Fin 131072) (r : Fin 2048) (q : Fin 8) (j : Fin 16) (hj : 8 + q.val = j.val)
    (hX : ∀ k : Fin 128, (View.ld x0 rX (ix2 r k) : EReal) = xx (ix2 (tokOf R k) (featOf k)))
    (hB : ∀ (t' : Fin 7) (k : Fin 128), slabsAt x2 q t' k = wp (ix2 (rowOf t' k) (0 : Fin 1)) * (if k.val / 16 = q.val then 1 else 0)) :
    out0_3 x0 x1 x2 (ix2 r j) = outAt xx ws wp R j := by
  unfold out0_3
  rw [View.canon_unit_zero zeros2]
  refine (stored_prod (View.ld x0 rX) (View.ld x1 rW0) (View.ld x1 rW1) (View.ld x1 rW2) (View.ld x1 rW3) (View.ld x1 rW4)
    (View.ld x1 rW5) (View.ld x1 rW6) (View.ld x2 rW0) (View.ld x2 rW1) (View.ld x2 rW2) (View.ld x2 rW3) (View.ld x2 rW4)
    (View.ld x2 rW5) (View.ld x2 rW6) r q j hj).trans ?_
  refine (congrArg Ideal.exp (prod_side xx wp (fun k => (View.ld x0 rX (ix2 r k) : EReal)) (slabsAt x2 q) R q hX hB)).trans ?_
  exact outAt_prod xx ws wp R q j hj

/-- The body's stored block at point `t` is the output-array function on the block's rows. -/
theorem block_value (c : Dev nD) (t : Fin cfg0.N) (r : Fin 2048) (j : Fin 16) :
    out0_3 (iblk m c 0 t) (iblk m c 1 t) (iblk m c 2 t) (ix2 r j)
      = outArr m c (ix2 (⟨2048 * t.val + r.val, by have := point_lt t; omega⟩ : Fin 131072) j) := by
  show _ = outAt (argX m c) (argWs m c) (argWp m c) (rowAt t r) j
  by_cases hj : j.val < 8
  · exact stored_block_sum (iblk m c 0 t) (iblk m c 1 t) (iblk m c 2 t) (argX m c) (argWs m c) (argWp m c) (rowAt t r) r
      (⟨j.val, hj⟩ : Fin 8) j rfl (fun k => packed_row m c t r k) (fun t' k => sum_slabs m c t (⟨j.val, hj⟩ : Fin 8) t' k)
  · have hq : j.val - 8 < 8 := by have := j.isLt; omega
    exact stored_block_prod (iblk m c 0 t) (iblk m c 1 t) (iblk m c 2 t) (argX m c) (argWs m c) (argWp m c) (rowAt t r) r
      (⟨j.val - 8, hq⟩ : Fin 8) j (by show 8 + (j.val - 8) = j.val; omega) (fun k => packed_row m c t r k)
      (fun t' k => prod_slabs m c t (⟨j.val - 8, hq⟩ : Fin 8) t' k)

/-- The region's output array after the run. -/
theorem out_array (c : Dev nD) : (dats m 0 c).arrAt 3 cfg0.N = outArr m c :=
  arr_of_blocks m c (outArr m c) (fun t r j => block_value m c t r j)

/-- The result array after the run is the specification of the argument arrays as launched. -/
theorem result_is_spec (c : Dev nD) :
    tailOf ((dats m 0 c).arrAt 3 cfg0.N) = G (argX m c) (argWs m c) (argWp m c) := by
  rw [out_array]
  funext i
  obtain ⟨b, s, rfl⟩ : ∃ (b : Fin 1048576) (s : Fin 2), i = ix2 b s := ⟨i 0, i 1, eq_ix2 i⟩
  rw [tailOf_apply]
  exact outAt_token _ _ _ b s

end Cert.KernelIdeal.Gen.Fr

end
-- ==== Proof.RefIsSpec.lean ====
/-
  The reference program's result is the specification.

  The reference sets the token's sixteen features beside their sine, cosine, hyperbolic tangent, exponential,
  log-magnitude and the quotient 1 / (1 + e^{-x}) — seven pieces of sixteen columns, column 16 t + d of the 112 being
  transform t of feature d —, contracts the 112 columns against one weight column for the first result column, and
  the log-magnitudes of the 112 columns against the other, exponentiated, for the second. Read one element at a time:
  a column of the seven pieces set side by side is a column of one piece; each piece at an element is its transform of
  the feature (the quotient is the logistic function); a contraction over the 112 columns is the double sum over the
  seven transforms and the sixteen features; and the two result columns set side by side are the two columns of the
  specification.
-/
import proofs.«171581_j43276090474799_2_alg».proof.Proof.Gen.ReferenceIdeal.Read
import proofs.«171581_j43276090474799_2_alg».proof.Proof.Laws
import proofs.«171581_j43276090474799_2_alg».proof.Proof.LibConcatParts

noncomputable section

namespace Cert.ReferenceIdeal.RefValue

open Cert.ReferenceIdeal Cert.ReferenceIdeal.Gen Cert.ReferenceIdeal.Read Idealize.ShloMosaic Idealize.ShloMosaic.ValueIdx
open scoped BigOperators

/-- Off the column axis a piece's index and the joined index have the same coordinate: the row. -/
theorem row_agrees (b : Fin 1048576) (d : Fin 16) (k : Fin 112) (c : Fin S1048576x16.rank)
    (hc : c.cast (rfl : S1048576x16.rank = S1048576x112.rank) ≠ (1 : Fin S1048576x112.rank)) :
    ((ix2 b d : S1048576x16.Idx) c).val = ((ix2 b k : S1048576x112.Idx) (c.cast rfl)).val := by
  match c with
  | ⟨0, _⟩ => rfl
  | ⟨1, _⟩ => exact absurd rfl hc

/-- Column `16 t + d` of the seven pieces set side by side is transform `t` of feature `d`: the column lies in
    piece `t`, whose sixteen columns follow the `16 t` of the pieces before it, and the piece at an element is the
    transform of the feature — the last one the quotient `1 / (1 + e^{-v})`, the logistic function. -/
theorem feats_apply (x : (⟨S1048576x16, .f32⟩ : BufTy).Contents (Elt Ideal)) (b : Fin 1048576) (t : Fin 7) (d : Fin 16) :
    val_main_v12 (F := Ideal) x (ix2 b (Cert.Spec.wrow t d)) = Cert.Spec.tf t (x (ix2 b d)) := by
  unfold val_main_v12
  match t with
  | ⟨0, _⟩ =>
    refine (concatenate_apply_piece (1 : Fin S1048576x112.rank) _ _ _ 0 (by show 0 < 7; omega) S1048576x16 x rfl rfl 0 rfl
      (ix2 b d) (row_agrees b d _) (by show 0 + d.val = 0 * 16 + d.val; omega)).trans ?_
    rfl
  | ⟨1, _⟩ =>
    refine (concatenate_apply_piece (1 : Fin S1048576x112.rank) _ _ _ 1 (by show 1 < 7; omega) S1048576x16 (val_main_v0 (F := Ideal) x) rfl rfl 16 rfl
      (ix2 b d) (row_agrees b d _) (by show 16 + d.val = 1 * 16 + d.val; omega)).trans ?_
    rfl
  | ⟨2, _⟩ =>
    refine (concatenate_apply_piece (1 : Fin S1048576x112.rank) _ _ _ 2 (by show 2 < 7; omega) S1048576x16 (val_main_v1 (F := Ideal) x) rfl rfl 32 rfl
      (ix2 b d) (row_agrees b d _) (by show 32 + d.val = 2 * 16 + d.val; omega)).trans ?_
    rfl
  | ⟨3, _⟩ =>
    refine (concatenate_apply_piece (1 : Fin S1048576x112.rank) _ _ _ 3 (by show 3 < 7; omega) S1048576x16 (val_main_v2 (F := Ideal) x) rfl rfl 48 rfl
      (ix2 b d) (row_agrees b d _) (by show 48 + d.val = 3 * 16 + d.val; omega)).trans ?_
    rfl
  | ⟨4, _⟩ =>
    refine (concatenate_apply_piece (1 : Fin S1048576x112.rank) _ _ _ 4 (by show 4 < 7; omega) S1048576x16 (val_main_v3 (F := Ideal) x) rfl rfl 64 rfl
      (ix2 b d) (row_agrees b d _) (by show 64 + d.val = 4 * 16 + d.val; omega)).trans ?_
    rfl
  | ⟨5, _⟩ =>
    refine (concatenate_apply_piece (1 : Fin S1048576x112.rank) _ _ _ 5 (by show 5 < 7; omega) S1048576x16 (val_main_v5 (F := Ideal) x) rfl rfl 80 rfl
      (ix2 b d) (row_agrees b d _) (by show 80 + d.val = 5 * 16 + d.val; omega)).trans ?_
    rfl
  | ⟨6, _⟩ =>
    refine (concatenate_apply_piece (1 : Fin S1048576x112.rank) _ _ _ 6 (by show 6 < 7; omega) S1048576x16 (val_main_v11 (F := Ideal) x) rfl rfl 96 rfl
      (ix2 b d) (row_agrees b d _) (by show 96 + d.val = 6 * 16 + d.val; omega)).trans ?_
    rw [val_main_v11_apply, val_main_v10_apply, val_main_cst_0_apply, val_main_v9_apply, val_main_v8_apply, val_main_cst_apply,
      val_main_v7_apply, val_main_v6_apply]
    simp only [Ideal.hostDivf_def, Ideal.addf_def, Ideal.hostUnary_exp_def, Ideal.hostNegf_def, Ideal.negf_def, Ideal.ofBits_def]
    exact Cert.Laws.div_one_eq_logistic _

/-- The contraction's left index at column `k` of token `b` is `(b, k)`. -/
theorem lidx13_eq (b : Fin 1048576) (k : Fin 112) : lidx_main_v13 (ix2 b (0 : Fin 1)) k = ix2 b k :=
  funext fun a => Fin.ext (by match a with | ⟨0, _⟩ => rfl | ⟨1, _⟩ => rfl)
/-- Its right index is row `k` of the weight column. -/
theorem ridx13_eq (b : Fin 1048576) (k : Fin 112) : ridx_main_v13 (ix2 b (0 : Fin 1)) k = ix2 k (0 : Fin 1) :=
  funext fun a => Fin.ext (by match a with | ⟨0, _⟩ => rfl | ⟨1, _⟩ => rfl)
theorem lidx16_eq (b : Fin 1048576) (k : Fin 112) : lidx_main_v16 (ix2 b (0 : Fin 1)) k = ix2 b k :=
  funext fun a => Fin.ext (by match a with | ⟨0, _⟩ => rfl | ⟨1, _⟩ => rfl)
theorem ridx16_eq (b : Fin 1048576) (k : Fin 112) : ridx_main_v16 (ix2 b (0 : Fin 1)) k = ix2 k (0 : Fin 1) :=
  funext fun a => Fin.ext (by match a with | ⟨0, _⟩ => rfl | ⟨1, _⟩ => rfl)

/-- The first contraction is the weighted sum of the 112 transformed features. -/
theorem sum_col (x : (⟨S1048576x16, .f32⟩ : BufTy).Contents (Elt Ideal)) (ws : (⟨S112x1, .f32⟩ : BufTy).Contents (Elt Ideal))
    (b : Fin 1048576) : val_main_v13 (F := Ideal) x ws (ix2 b (0 : Fin 1)) = Cert.Spec.wsum x ws b := by
  rw [val_main_v13_apply, Cert.Laws.sum_rows]
  unfold Cert.Spec.wsum
  refine Finset.sum_congr rfl fun t _ => Finset.sum_congr rfl fun d _ => ?_
  rw [lidx13_eq, ridx13_eq, feats_apply]

/-- The second is the weighted sum of their log-magnitudes. -/
theorem log_col (x : (⟨S1048576x16, .f32⟩ : BufTy).Contents (Elt Ideal)) (wp : (⟨S112x1, .f32⟩ : BufTy).Contents (Elt Ideal))
    (b : Fin 1048576) : val_main_v16 (F := Ideal) x wp (ix2 b (0 : Fin 1)) = Cert.Spec.wlog x wp b := by
  rw [val_main_v16_apply, Cert.Laws.sum_rows]
  unfold Cert.Spec.wlog
  refine Finset.sum_congr rfl fun t _ => Finset.sum_congr rfl fun d _ => ?_
  rw [lidx16_eq, ridx16_eq, val_main_v15_apply, val_main_v14_apply, feats_apply]
  rfl

/-- The reference's result is the specification: its first column the weighted sum, its second the exponential of the
    weighted sum of log-magnitudes. -/
theorem ref_is_spec (x : (⟨S1048576x16, .f32⟩ : BufTy).Contents (Elt Ideal)) (ws wp : (⟨S112x1, .f32⟩ : BufTy).Contents (Elt Ideal)) :
    val_main_v18 (F := Ideal) x ws wp = Cert.Spec.G x ws wp := by
  funext i
  obtain ⟨b, s, rfl⟩ : ∃ (b : Fin 1048576) (s : Fin 2), i = ix2 b s := ⟨i 0, i 1, eq_ix2 i⟩
  unfold val_main_v18
  match s with
  | ⟨0, h0⟩ =>
    refine (KerHostLayout.concat2_cols_fst (a := 1048576) (b₁ := 1) (b₂ := 1) (b := 2) _ _ _ b (⟨0, h0⟩ : Fin 2) (0 : Fin 1) rfl).trans ?_
    rw [sum_col]
    exact (Cert.Spec.G_sum x ws wp b).symm
  | ⟨1, h1⟩ =>
    refine (KerHostLayout.concat2_cols_snd (a := 1048576) (b₁ := 1) (b₂ := 1) (b := 2) _ _ _ b (⟨1, h1⟩ : Fin 2) (0 : Fin 1) rfl).trans ?_
    rw [val_main_v17_apply, log_col]
    exact (Cert.Spec.G_prod x ws wp b).symm

end Cert.ReferenceIdeal.RefValue

end
-- ==== Proof.lean ====
/-
  A token has sixteen features; seven transforms of each (identity, sine, cosine, hyperbolic tangent,
  exponential, log-magnitude, logistic) give 112 values per token. Both programs return, per token, the weighted
  sum of the 112 values beside the exponential of the weighted sum of their log-magnitudes.

  The reference concatenates the seven transforms and contracts the 112 columns against each weight column. The
  kernel packs eight tokens into one row of 128 lanes, multiplies each transform of the packed row with a
  block-diagonal `[128, 8]` weight slab (the sixteen weights of the transform repeated along the lanes and masked
  by the 0/1 indicator of "lane belongs to token q"), accumulates the seven products from zero, and un-packs the
  result; for the exponential transform it multiplies `x` itself in place of `log |e^x|`.

  On the extended reals the two are one function: a matrix product into a zero accumulator is the plain sum over
  the lanes and a change of float format is the identity; off a token's lanes a term is `a · (w · 0) = 0` and on
  them `a · (w · 1) = a · w`, whatever `a` and `w` are, so the sum over 128 lanes is the sum over the token's sixteen
  features; a sum over 112 rows is seven sums over sixteen; `log |e^v| = v` for every extended real `v`; and the
  quotient `1 / (1 + e^{-v})` is the logistic function. Only commutativity and associativity of `+` and the laws
  of `0` and `1` are used, so the precondition (finite inputs) is never opened.

  Each program's frame — every weakly fair execution terminates, nothing faults, the arguments end unchanged — is
  proved for the kernel's one region from the region-entry contents, the body's one stored block as a function of
  its three input blocks, and the pipeline's launch theorem; the reference's frame is its run with the result
  dropped.
-/
import proofs.«171581_j43276090474799_2_alg».proof.Defs
import proofs.«171581_j43276090474799_2_alg».proof.Proof.Gen.Kernel
import proofs.«171581_j43276090474799_2_alg».proof.Proof.Gen.KernelIdeal
import proofs.«171581_j43276090474799_2_alg».proof.Proof.Gen.ReferenceIdeal
import proofs.«171581_j43276090474799_2_alg».proof.Proof.Gen.Pre_finite_inputs
import proofs.«171581_j43276090474799_2_alg».proof.Proof.FrameK
import proofs.«171581_j43276090474799_2_alg».proof.Proof.FrameKI
import proofs.«171581_j43276090474799_2_alg».proof.Proof.KernelValue
import proofs.«171581_j43276090474799_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel := fun m ρ _ => Cert.Kernel.Gen.Fr.frame m ρ

/-- So does the kernel read on the extended reals. -/
theorem frame_ki : Cert.frame_KernelIdeal := fun m ρ _ => Cert.KernelIdeal.Gen.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's run ends with the result array at the specification of its arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v132)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun _ h c => ⟨(h c).1.trans (Cert.KernelIdeal.Gen.Fr.result_is_spec m c), (h c).2⟩)
    (Cert.KernelIdeal.Gen.Fr.result_run m ρ)

/-- From memories agreeing on the arguments both programs end with the specification of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v18_eq _ _ _).trans (Cert.ReferenceIdeal.RefValue.ref_is_spec _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
